-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v22_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S400000x128 : Shape := ⟨2, ![400000, 128]⟩
abbrev S400000x2 : Shape := ⟨2, ![400000, 2]⟩
abbrev S384x128 : Shape := ⟨2, ![384, 128]⟩
abbrev S128 : Shape := ⟨1, ![128]⟩
abbrev S128x384 : Shape := ⟨2, ![128, 384]⟩
abbrev S384 : Shape := ⟨1, ![384]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S400000x128 : S_.BroadcastsInDim S400000x128 (![] : Fin 0 → Fin S400000x128.rank)
  reducesTo_S400000x128_S_d0_1 : S400000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x384 .f32) (main_arg6 : FVec F S384 .f32) (main_arg7 : FVec F S128x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x384 .f32 := Host.absf main_arg5
  let main_cst_6 : FVec F S_ .f32 := constant S_ .f32 0x7F800000#32
  let main_v20 : FVec F S128x384 .f32 := broadcastInDim S128x384 ![] bcast_S_S128x384 main_cst_6
  let main_v21 : IVec S128x384 1 := cmpf .olt main_v19 main_v20
  let main_c_7 : IVec S_ 1 := constantI S_ 1 1#1
  let main_v22 : IVec S_ 1 := (fun x v => Host.reduce IntOp.andi x v reducesTo_S128x384_S_d0_1 h_S_) main_v21 main_c_7
  let main_v23 : IVec S_ 1 := andi main_v18 main_v22
  let main_v24 : FVec F S384 .f32 := Host.absf main_arg6
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : FVec F S400000x128 .f32) (main_arg2 : IVec S400000x2 32) (main_arg3 : FVec F S384x128 .f32) (main_arg4 : FVec F S128 .f32) (main_arg5 : FVec F S128x384 .f32) (main_arg6 : FVec F S384 .f32) (main_arg7 : FVec F S128x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S400000x128 : Shape := ⟨2, ![400000, 128]⟩
abbrev S400000x2 : Shape := ⟨2, ![400000, 2]⟩
abbrev S384x128 : Shape := ⟨2, ![384, 128]⟩
abbrev S128 : Shape := ⟨1, ![128]⟩
abbrev S128x384 : Shape := ⟨2, ![128, 384]⟩
abbrev S384 : Shape := ⟨1, ![384]⟩
abbrev S128x128 : Shape := ⟨2, ![128, 128]⟩
abbrev S400000x1 : Shape := ⟨2, ![400000, 1]⟩
abbrev S400000 : Shape := ⟨1, ![400000]⟩
abbrev S_ : Shape := ⟨0, ![]⟩
abbrev S1x128 : Shape := ⟨2, ![1, 128]⟩
abbrev S1x384 : Shape := ⟨2, ![1, 384]⟩
abbrev S3200x128 : Shape := ⟨2, ![3200, 128]⟩
abbrev S3200x384 : Shape := ⟨2, ![3200, 384]⟩
abbrev S800000 : Shape := ⟨1, ![800000]⟩
abbrev S800000x128 : Shape := ⟨2, ![800000, 128]⟩
abbrev S800000x1 : Shape := ⟨2, ![800000, 1]⟩
abbrev S100000 : Shape := ⟨1, ![100000]⟩
abbrev S100000x1 : Shape := ⟨2, ![100000, 1]⟩
abbrev S4000x128 : Shape := ⟨2, ![4000, 128]⟩
abbrev S4000x1 : Shape := ⟨2, ![4000, 1]⟩

abbrev nBuf : Space → Nat
  | .hbm => 72
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S400000x128, .f32⟩
  | .hbm, ⟨2, _⟩ => ⟨S400000x2, .i32⟩
  | .hbm, ⟨3, _⟩ => ⟨S384x128, .f32⟩
  | .hbm, ⟨4, _⟩ => ⟨S128, .f32⟩
  | .hbm, ⟨5, _⟩ => ⟨S128x384, .f32⟩
  | .hbm, ⟨6, _⟩ => ⟨S384, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S400000x1, .i32⟩
  | .hbm, ⟨12, _⟩ => ⟨S400000, .i32⟩
  | .hbm, ⟨13, _⟩ => ⟨S400000x1, .i32⟩
  | .hbm, ⟨14, _⟩ => ⟨S400000, .i32⟩
  | .hbm, ⟨15, _⟩ => ⟨S_, .i32⟩
  | .hbm, ⟨16, _⟩ => ⟨S400000, .i32⟩
  | .hbm, ⟨17, _⟩ => ⟨S400000, .i1⟩
  | .hbm, ⟨18, _⟩ => ⟨S_, .i32⟩
  | .hbm, ⟨19, _⟩ => ⟨S400000, .i32⟩
  | .hbm, ⟨20, _⟩ => ⟨S400000, .i32⟩
  | .hbm, ⟨21, _⟩ => ⟨S400000, .i32⟩
  | .hbm, ⟨22, _⟩ => ⟨S400000x1, .i32⟩
  | .hbm, ⟨23, _⟩ => ⟨S400000x128, .f32⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x128, .f32⟩
  | .hbm, ⟨33, _⟩ => ⟨S384x128, .bf16⟩
  | .hbm, ⟨34, _⟩ => ⟨S128x384, .bf16⟩
  | .hbm, ⟨35, _⟩ => ⟨S1x128, .f32⟩
  | .hbm, ⟨36, _⟩ => ⟨S1x384, .f32⟩
  | .hbm, ⟨37, _⟩ => ⟨S400000x128, .f32⟩
  | .hbm, ⟨38, _⟩ => ⟨S400000x128, .f32⟩
  | .hbm, ⟨39, _⟩ => ⟨S400000x128, .f32⟩
  | .hbm, ⟨40, _⟩ => ⟨S800000, .i32⟩
  | .hbm, ⟨41, _⟩ => ⟨S800000x128, .f32⟩
  | .hbm, ⟨42, _⟩ => ⟨S_, .f32⟩
  | .hbm, ⟨43, _⟩ => ⟨S100000x128, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S100000x128, .f32⟩
  | .hbm, ⟨53, _⟩ => ⟨S_, .f32⟩
  | .hbm, ⟨54, _⟩ => ⟨S800000, .f32⟩
  | .hbm, ⟨55, _⟩ => ⟨S_, .f32⟩
  | .hbm, ⟨56, _⟩ => ⟨S100000, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S100000, .f32⟩
  | .hbm, ⟨66, _⟩ => ⟨S100000x1, .f32⟩
  | .hbm, ⟨67, _⟩ => ⟨S128x128, .bf16⟩
  | .hbm, ⟨68, _⟩ => ⟨S128x128, .bf16⟩
  | .hbm, ⟨69, _⟩ => ⟨S1x128, .f32⟩
  | .hbm, ⟨70, _⟩ => ⟨S1x128, .f32⟩
  | .hbm, ⟨71, _⟩ => ⟨S100000x128, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S3200x128, .f32⟩
  | .local _ .vmem, ⟨5, _⟩ => ⟨S3200x128, .f32⟩
  | .local _ .vmem, ⟨6, _⟩ => ⟨S384x128, .bf16⟩
  | .local _ .vmem, ⟨7, _⟩ => ⟨S1x128, .f32⟩
  | .local _ .vmem, ⟨8, _⟩ => ⟨S128x384, .bf16⟩
  | .local _ .vmem, ⟨9, _⟩ => ⟨S1x384, .f32⟩
  | .local _ .vmem, ⟨10, _⟩ => ⟨S3200x128, .f32⟩
  | .local _ .vmem, ⟨11, _⟩ => ⟨S3200x128, .f32⟩
  | .local _ .vmem, ⟨12, _⟩ => ⟨S3200x128, .f32⟩
  | .local _ .vmem, ⟨13, _⟩ => ⟨S3200x128, .f32⟩
  | .local _ .vmem, ⟨14, _⟩ => ⟨S3200x128, .f32⟩
  | .local _ .vmem, ⟨15, _⟩ => ⟨S3200x128, .f32⟩
  | .local _ .vmem, ⟨16, _⟩ => ⟨S4000x128, .f32⟩
  | .local _ .vmem, ⟨17, _⟩ => ⟨S4000x128, .f32⟩
  | .local _ .vmem, ⟨18, _⟩ => ⟨S4000x1, .f32⟩
  | .local _ .vmem, ⟨19, _⟩ => ⟨S4000x1, .f32⟩
  | .local _ .vmem, ⟨20, _⟩ => ⟨S128x128, .bf16⟩
  | .local _ .vmem, ⟨21, _⟩ => ⟨S1x128, .f32⟩
  | .local _ .vmem, ⟨22, _⟩ => ⟨S128x128, .bf16⟩
  | .local _ .vmem, ⟨23, _⟩ => ⟨S1x128, .f32⟩
  | .local _ .vmem, ⟨24, _⟩ => ⟨S4000x128, .f32⟩
  | .local _ .vmem, ⟨25, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22_0 : Ref sig .tc := ⟨.hbm, 37, rfl⟩
abbrev main_v22_1 : Ref sig .tc := ⟨.hbm, 38, rfl⟩
abbrev main_v22_2 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_c_7 : Ref sig .tc := ⟨.hbm, 57, rfl⟩
abbrev main_v35 : Ref sig .tc := ⟨.hbm, 58, rfl⟩
abbrev main_v36 : Ref sig .tc := ⟨.hbm, 59, rfl⟩
abbrev main_c_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3200x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3200x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3200x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000 : S_.BroadcastsInDim S400000 (![] : Fin 0 → Fin S400000.rank)
  bcast_S400000_S400000x1_0 : S400000.BroadcastsInDim S400000x1 (![0] : Fin 1 → Fin S400000x1.rank)
  bitsLt_bf16_f32 : FTy.bits .bf16 < FTy.bits .f32
  shapeCasts_S128_S1x128 : S128.ShapeCasts S1x128
  shapeCasts_S384_S1x384 : S384.ShapeCasts S1x384
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S384x128_S128x128_0_0 : ∀ a, (![0, 0] : Fin 2 → Nat) a + S128x128.size a ≤ S384x128.size a
  h_S128x128 : 0 < S128x128.numel
  shapeCasts_S128x128_S128x128 : S128x128.ShapeCasts S128x128
  inb_S384x128_S128x128_128_0 : ∀ a, (![128, 0] : Fin 2 → Nat) a + S128x128.size a ≤ S384x128.size a
  inb_S384x128_S128x128_256_0 : ∀ a, (![256, 0] : Fin 2 → Nat) a + S128x128.size a ≤ S384x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S3200x384 : S1x384.Broadcasts S3200x384
  slices_S3200x384_o0_0_S3200x128 : S3200x384.Slices ![0, 0] S3200x128
  slices_S3200x384_o0_128_S3200x128 : S3200x384.Slices ![0, 128] S3200x128
  slices_S3200x384_o0_256_S3200x128 : S3200x384.Slices ![0, 256] S3200x128
  concatenates_S400000_S400000_S800000_d0 : Shape.Concatenates [S400000, S400000] S800000 0
  concatenates_S400000x128_S400000x128_S800000x128_d0 : Shape.Concatenates [S400000x128, S400000x128] S800000x128 0
  bcast_S_S100000x128 : S_.BroadcastsInDim S100000x128 (![] : Fin 0 → Fin S100000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S100000 : S_.BroadcastsInDim S100000 (![] : Fin 0 → Fin S100000.rank)
  shapeCasts_S100000_S100000x1 : S100000.ShapeCasts S100000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  inb_S128x128_S128x128_0_0 : ∀ a, (![0, 0] : Fin 2 → Nat) a + S128x128.size a ≤ S128x128.size a
  broadcasts_S1x128_S4000x128 : S1x128.Broadcasts S4000x128
  gather_S100000x128_S400000x1_S400000x128_1_0_n_n_0_1_1128_wf : GatherDims.WF S100000x128 S400000x1 S400000x128 [1] [0] [] [0] [] 1 ![1, 128]
  dot_S3200x128_S128x128_S3200x128_1_0_0_1_n_n_wf : DotDims.WF S3200x128 S128x128 S3200x128 [1] [0] [0] [1] [] []
  dot_S3200x128_S128x384_S3200x384_1_0_0_1_n_n_wf : DotDims.WF S3200x128 S128x384 S3200x384 [1] [0] [0] [1] [] []
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S400000x128.size a
  hwx0_0 : ∀ i : grid0.Coords, EltTy.bits .f32 = 32 ∨ (Rect.block (s := S400000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S400000x128.size a
  hwx0_1 : ∀ i : grid0.Coords, EltTy.bits .f32 = 32 ∨ (Rect.block (s := S400000x128) S3200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x128.size a ≤ S400000x128.size a
  hwx0_2 : ∀ i : grid0.Coords, EltTy.bits .f32 = 32 ∨ (Rect.block (s := S400000x128) S3200x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .bf16 = 32 ∨ (Rect.block (s := S384x128) S384x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x384.size a ≤ S128x384.size a
  hwx0_5 : ∀ i : grid0.Coords, EltTy.bits .bf16 = 32 ∨ (Rect.block (s := S128x384) S128x384.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3200x128.size a ≤ S400000x128.size a
  hwx0_7 : ∀ i : grid0.Coords, EltTy.bits .f32 = 32 ∨ (Rect.block (s := S400000x128) S3200x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3200x128.size a ≤ S400000x128.size a
  hwx0_8 : ∀ i : grid0.Coords, EltTy.bits .f32 = 32 ∨ (Rect.block (s := S400000x128) S3200x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3200x128.size a ≤ S400000x128.size a
  hwx0_9 : ∀ i : grid0.Coords, EltTy.bits .f32 = 32 ∨ (Rect.block (s := S400000x128) S3200x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x128_S128x384_S3200x384_1_0_0_1_n_n : DotDims S3200x128 S128x384 S3200x384 where
  lhsContracting := [1]
  rhsContracting := [0]
  lhsNonContracting := [0]
  rhsNonContracting := [1]
  lhsBatch := []
  rhsBatch := []
  wf := dot_S3200x128_S128x384_S3200x384_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v10) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S3200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S128x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22_0) S3200x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v22_1) S3200x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v22_2) S3200x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v32) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v47) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S400000x128 : Shape := ⟨2, ![400000, 128]⟩
abbrev S400000x2 : Shape := ⟨2, ![400000, 2]⟩
abbrev S384x128 : Shape := ⟨2, ![384, 128]⟩
abbrev S128 : Shape := ⟨1, ![128]⟩
abbrev S128x384 : Shape := ⟨2, ![128, 384]⟩
abbrev S384 : Shape := ⟨1, ![384]⟩
abbrev S128x128 : Shape := ⟨2, ![128, 128]⟩
abbrev S400000x1 : Shape := ⟨2, ![400000, 1]⟩
abbrev S400000 : Shape := ⟨1, ![400000]⟩
abbrev S_ : Shape := ⟨0, ![]⟩
abbrev S400000x384 : Shape := ⟨2, ![400000, 384]⟩
abbrev S1x128 : Shape := ⟨2, ![1, 128]⟩
abbrev S1x384 : Shape := ⟨2, ![1, 384]⟩
abbrev S100000 : Shape := ⟨1, ![100000]⟩
abbrev S100000x1 : Shape := ⟨2, ![100000, 1]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S400000x128, .f32⟩
  | .hbm, ⟨2, _⟩ => ⟨S400000x2, .i32⟩
  | .hbm, ⟨3, _⟩ => ⟨S384x128, .f32⟩
  | .hbm, ⟨4, _⟩ => ⟨S128, .f32⟩
  | .hbm, ⟨5, _⟩ => ⟨S128x384, .f32⟩
  | .hbm, ⟨6, _⟩ => ⟨S384, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S400000x1, .i32⟩
  | .hbm, ⟨12, _⟩ => ⟨S400000, .i32⟩
  | .hbm, ⟨13, _⟩ => ⟨S400000x1, .i32⟩
  | .hbm, ⟨14, _⟩ => ⟨S400000, .i32⟩
  | .hbm, ⟨15, _⟩ => ⟨S_, .i32⟩
  | .hbm, ⟨16, _⟩ => ⟨S400000, .i32⟩
  | .hbm, ⟨17, _⟩ => ⟨S400000, .i1⟩
  | .hbm, ⟨18, _⟩ => ⟨S_, .i32⟩
  | .hbm, ⟨19, _⟩ => ⟨S400000, .i32⟩
  | .hbm, ⟨20, _⟩ => ⟨S400000, .i32⟩
  | .hbm, ⟨21, _⟩ => ⟨S400000, .i32⟩
  | .hbm, ⟨22, _⟩ => ⟨S400000x1, .i32⟩
  | .hbm, ⟨23, _⟩ => ⟨S400000x128, .f32⟩
  | .hbm, ⟨24, _⟩ => ⟨S_, .i32⟩
  | .hbm, ⟨25, _⟩ => ⟨S400000, .i32⟩
  | .hbm, ⟨26, _⟩ => ⟨S400000, .i1⟩
  | .hbm, ⟨27, _⟩ => ⟨S_, .i32⟩
  | .hbm, ⟨28, _⟩ => ⟨S400000, .i32⟩
  | .hbm, ⟨29, _⟩ => ⟨S400000, .i32⟩
  | .hbm, ⟨30, _⟩ => ⟨S400000, .i32⟩
  | .hbm, ⟨31, _⟩ => ⟨S400000x1, .i32⟩
  | .hbm, ⟨32, _⟩ => ⟨S400000x128, .f32⟩
  | .hbm, ⟨33, _⟩ => ⟨S400000x384, .f32⟩
  | .hbm, ⟨34, _⟩ => ⟨S400000x128, .f32⟩
  | .hbm, ⟨35, _⟩ => ⟨S1x128, .f32⟩
  | .hbm, ⟨36, _⟩ => ⟨S400000x128, .f32⟩
  | .hbm, ⟨37, _⟩ => ⟨S400000x128, .f32⟩
  | .hbm, ⟨38, _⟩ => ⟨S_, .f32⟩
  | .hbm, ⟨39, _⟩ => ⟨S400000x128, .f32⟩
  | .hbm, ⟨40, _⟩ => ⟨S400000x128, .f32⟩
  | .hbm, ⟨41, _⟩ => ⟨S400000x384, .f32⟩
  | .hbm, ⟨42, _⟩ => ⟨S1x384, .f32⟩
  | .hbm, ⟨43, _⟩ => ⟨S400000x384, .f32⟩
  | .hbm, ⟨44, _⟩ => ⟨S400000x384, .f32⟩
  | .hbm, ⟨45, _⟩ => ⟨S_, .f32⟩
  | .hbm, ⟨46, _⟩ => ⟨S400000x384, .f32⟩
  | .hbm, ⟨47, _⟩ => ⟨S400000x384, .f32⟩
  | .hbm, ⟨48, _⟩ => ⟨S400000x128, .f32⟩
  | .hbm, ⟨49, _⟩ => ⟨S400000x128, .f32⟩
  | .hbm, ⟨50, _⟩ => ⟨S400000x128, .f32⟩
  | .hbm, ⟨51, _⟩ => ⟨S_, .f32⟩
  | .hbm, ⟨52, _⟩ => ⟨S100000x128, .f32⟩
  | .hbm, ⟨53, _⟩ => ⟨S_, .i32⟩
  | .hbm, ⟨54, _⟩ => ⟨S400000, .i32⟩
  | .hbm, ⟨55, _⟩ => ⟨S400000, .i1⟩
  | .hbm, ⟨56, _⟩ => ⟨S_, .i32⟩
  | .hbm, ⟨57, _⟩ => ⟨S400000, .i32⟩
  | .hbm, ⟨58, _⟩ => ⟨S400000, .i32⟩
  | .hbm, ⟨59, _⟩ => ⟨S400000, .i32⟩
  | .hbm, ⟨60, _⟩ => ⟨S400000x1, .i32⟩
  | .hbm, ⟨61, _⟩ => ⟨S100000x128, .f32⟩
  | .hbm, ⟨62, _⟩ => ⟨S_, .i32⟩
  | .hbm, ⟨63, _⟩ => ⟨S400000, .i32⟩
  | .hbm, ⟨64, _⟩ => ⟨S400000, .i1⟩
  | .hbm, ⟨65, _⟩ => ⟨S_, .i32⟩
  | .hbm, ⟨66, _⟩ => ⟨S400000, .i32⟩
  | .hbm, ⟨67, _⟩ => ⟨S400000, .i32⟩
  | .hbm, ⟨68, _⟩ => ⟨S400000, .i32⟩
  | .hbm, ⟨69, _⟩ => ⟨S400000x1, .i32⟩
  | .hbm, ⟨70, _⟩ => ⟨S100000x128, .f32⟩
  | .hbm, ⟨71, _⟩ => ⟨S_, .f32⟩
  | .hbm, ⟨72, _⟩ => ⟨S400000, .f32⟩
  | .hbm, ⟨73, _⟩ => ⟨S_, .f32⟩
  | .hbm, ⟨74, _⟩ => ⟨S100000, .f32⟩
  | .hbm, ⟨75, _⟩ => ⟨S_, .i32⟩
  | .hbm, ⟨76, _⟩ => ⟨S400000, .i32⟩
  | .hbm, ⟨77, _⟩ => ⟨S400000, .i1⟩
  | .hbm, ⟨78, _⟩ => ⟨S_, .i32⟩
  | .hbm, ⟨79, _⟩ => ⟨S400000, .i32⟩
  | .hbm, ⟨80, _⟩ => ⟨S400000, .i32⟩
  | .hbm, ⟨81, _⟩ => ⟨S400000, .i32⟩
  | .hbm, ⟨82, _⟩ => ⟨S400000x1, .i32⟩
  | .hbm, ⟨83, _⟩ => ⟨S100000, .f32⟩
  | .hbm, ⟨84, _⟩ => ⟨S_, .i32⟩
  | .hbm, ⟨85, _⟩ => ⟨S400000, .i32⟩
  | .hbm, ⟨86, _⟩ => ⟨S400000, .i1⟩
  | .hbm, ⟨87, _⟩ => ⟨S_, .i32⟩
  | .hbm, ⟨88, _⟩ => ⟨S400000, .i32⟩
  | .hbm, ⟨89, _⟩ => ⟨S400000, .i32⟩
  | .hbm, ⟨90, _⟩ => ⟨S400000, .i32⟩
  | .hbm, ⟨91, _⟩ => ⟨S400000x1, .i32⟩
  | .hbm, ⟨92, _⟩ => ⟨S100000, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S100000, .f32⟩
  | .hbm, ⟨97, _⟩ => ⟨S100000, .f32⟩
  | .hbm, ⟨98, _⟩ => ⟨S_, .f32⟩
  | .hbm, ⟨99, _⟩ => ⟨S100000, .f32⟩
  | .hbm, ⟨100, _⟩ => ⟨S100000, .f32⟩
  | .hbm, ⟨101, _⟩ => ⟨S100000x1, .f32⟩
  | .hbm, ⟨102, _⟩ => ⟨S100000x128, .f32⟩
  | .hbm, ⟨103, _⟩ => ⟨S100000x128, .f32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000x128, .f32⟩
  | .hbm, ⟨110, _⟩ => ⟨S100000x128, .f32⟩
  | .hbm, ⟨111, _⟩ => ⟨S100000x128, .f32⟩
  | .hbm, ⟨112, _⟩ => ⟨S1x128, .f32⟩
  | .hbm, ⟨113, _⟩ => ⟨S100000x128, .f32⟩
  | .hbm, ⟨114, _⟩ => ⟨S100000x128, .f32⟩
  | .hbm, ⟨115, _⟩ => ⟨S_, .f32⟩
  | .hbm, ⟨116, _⟩ => ⟨S100000x128, .f32⟩
  | .hbm, ⟨117, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst : Ref sig .tc := ⟨.hbm, 51, rfl⟩
abbrev main_v32 : Ref sig .tc := ⟨.hbm, 52, rfl⟩
abbrev main_c_3 : Ref sig .tc := ⟨.hbm, 53, rfl⟩
abbrev main_v33 : Ref sig .tc := ⟨.hbm, 54, rfl⟩
abbrev main_v34 : Ref sig .tc := ⟨.hbm, 55, rfl⟩
abbrev main_c_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_5 : Ref sig .tc := ⟨.hbm, 62, rfl⟩
abbrev main_v40 : Ref sig .tc := ⟨.hbm, 63, rfl⟩
abbrev main_v41 : Ref sig .tc := ⟨.hbm, 64, rfl⟩
abbrev main_c_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_7 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_13 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_call3_cst : Ref sig .tc := ⟨.hbm, 108, rfl⟩
abbrev main_call3_v0 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_call4_cst : Ref sig .tc := ⟨.hbm, 115, rfl⟩
abbrev main_call4_v0 : Ref sig .tc := ⟨.hbm, 116, rfl⟩
abbrev main_v76 : Ref sig .tc := ⟨.hbm, 117, rfl⟩

abbrev nD : Nat := 1
abbrev τ : Topo := Topo.v7x

variable {F : FTy → Type} [FloatOps F]

class Facts₀ : Prop where
  slices_S400000x2_S400000x1_0_0 : S400000x2.Slices ![0, 0] S400000x1
  shapeCasts_S400000x1_S400000 : S400000x1.ShapeCasts S400000
  slices_S400000x2_S400000x1_0_1 : S400000x2.Slices ![0, 1] S400000x1
  bcast_S_S400000 : S_.BroadcastsInDim S400000 (![] : Fin 0 → Fin S400000.rank)
  bcast_S400000_S400000x1_0 : S400000.BroadcastsInDim S400000x1 (![0] : Fin 1 → Fin S400000x1.rank)
  concatenates_S400000x128_S400000x128_S400000x128_S400000x384_d1 : Shape.Concatenates [S400000x128, S400000x128, S400000x128] S400000x384 1
  bcast_S128_S1x128_1 : S128.BroadcastsInDim S1x128 (![1] : Fin 1 → Fin S1x128.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S384_S1x384_1 : S384.BroadcastsInDim S1x384 (![1] : Fin 1 → Fin S1x384.rank)
  bcast_S1x384_S400000x384_0_1 : S1x384.BroadcastsInDim S400000x384 (![0, 1] : Fin 2 → Fin S400000x384.rank)
  bcast_S_S400000x384 : S_.BroadcastsInDim S400000x384 (![] : Fin 0 → Fin S400000x384.rank)
  slices_S400000x384_S400000x128_0_0 : S400000x384.Slices ![0, 0] S400000x128
  slices_S400000x384_S400000x128_0_128 : S400000x384.Slices ![0, 128] S400000x128
  slices_S400000x384_S400000x128_0_256 : S400000x384.Slices ![0, 256] S400000x128
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  gather_S100000x128_S400000x1_S400000x128_1_0_n_n_0_1_1128_wf : GatherDims.WF S100000x128 S400000x1 S400000x128 [1] [0] [] [0] [] 1 ![1, 128]
  dot_S400000x384_S384x128_S400000x128_1_0_0_1_n_n_wf : DotDims.WF S400000x384 S384x128 S400000x128 [1] [0] [0] [1] [] []
  dot_S400000x128_S128x384_S400000x384_1_0_0_1_n_n_wf : DotDims.WF S400000x128 S128x384 S400000x384 [1] [0] [0] [1] [] []
  scatter_S100000x128_S400000x1_S400000x128_1_0_0_1_wf : ScatterDims.WF S100000x128 S400000x1 S400000x128 [1] [0] [0] 1
  scatter_S100000_S400000x1_S400000_n_0_0_1_wf : ScatterDims.WF S100000 S400000x1 S400000 [] [0] [0] 1
  dot_S100000x128_S128x128_S100000x128_1_0_0_1_n_n_wf : DotDims.WF S100000x128 S128x128 S100000x128 [1] [0] [0] [1] [] []

variable [Facts₀]

def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S400000x384_S384x128_S400000x128_1_0_0_1_n_n : DotDims S400000x384 S384x128 S400000x128 where
  lhsContracting := [1]
  rhsContracting := [0]
  lhsNonContracting := [0]
  rhsNonContracting := [1]
  lhsBatch := []
  rhsBatch := []
  wf := dot_S400000x384_S384x128_S400000x128_1_0_0_1_n_n_wf
def dot_S400000x128_S128x384_S400000x384_1_0_0_1_n_n : DotDims S400000x128 S128x384 S400000x384 where
  lhsContracting := [1]
  rhsContracting := [0]
  lhsNonContracting := [0]
  rhsNonContracting := [1]
  lhsBatch := []
  rhsBatch := []
  wf := dot_S400000x128_S128x384_S400000x384_1_0_0_1_n_n_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its two results NAMED.

  @main is four segments: the host operations before the first pallas_call, the first pallas_call (the edge network),
  the host operations between the calls (the scatter-adds), the second pallas_call (the object network). The buffer
  contents at the four boundaries are a fold from the launch memory; the last of them, `W4`, is what every unscoped
  buffer holds when @main returns. The run below is the frame's run over the same segments, with a stronger reading of
  the final state: besides the eleven argument arrays ending as launched, the two result arrays end at `W4`'s contents.
  What `W4` holds at the two results is opened in the modules that follow.
-/
import proofs.«176940_j88923002896582_2_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the object network's output array and the edge
    network's predicate output array end at the last boundary's contents, and the arguments end as launched. -/
theorem run_named : θ_run defs (onTc (τ := τ) (main (F := F))) ⟨m, fun _ => 0, ρ⟩ (fun r => ∀ c : Dev nD,
      r.2.mem ((c.tc : Thread nD τ).loc main_v47) = W4 m ρ c (Proc.devRef .tc main_v47)
      ∧ r.2.mem ((c.tc : Thread nD τ).loc main_v22_1) = W4 m ρ c (Proc.devRef .tc main_v22_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v47 (by decide)),
       h c _ (mem_uc main_v22_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelRun

end
-- ==== Proof.HostStretch.lean ====
/-
  What the buffers hold where the two pallas_calls are entered, and at the return.

  The host operations before the first call gather the subject and object rows of every edge (the edge's two node
  indices, a negative index first moved up by the number of nodes), keep the predicate rows, and re-lay the parameters
  (a change of float format is the identity on the extended reals; a bias `[n]` becomes a row `[1, n]`). Those between the
  calls concatenate the two index streams and the subject and object outputs of the edge network, and scatter-add the
  concatenated rows — and a stream of ones — into zeros: the pooled sums and the incidence counts. Each fact below reads
  one buffer through the fold of the operations that precede it; the gathers and scatters stay whole, as terms.
-/
import proofs.«176940_j88923002896582_2_alg».proof.Proof.Gen.KernelIdeal.Frame
import proofs.«176940_j88923002896582_2_alg».proof.Proof.Gen.ReferenceIdeal.Read
import Idealize.ShloMosaic.Lib.StableHlo.Run

set_option maxRecDepth 16384

noncomputable section

namespace Cert.HostStretch

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the first call's entry -/

/-- The gathered subject rows: the same term the reference computes. -/
theorem V1_v10 (c : Dev nD) :
    (V1 m ρ c main_v10 : S400000x128.Idx → EReal)
      = Cert.ReferenceIdeal.Read.val_main_v10 (F := Ideal) (m ((c : Thread nD τ).loc main_arg0)) (m ((c : Thread nD τ).loc main_arg2)) := by
  dsimp only [V1, W1, hostOps0]
  after_results_simp
  rfl

/-- The gathered object rows: the same term the reference computes. -/
theorem V1_v17 (c : Dev nD) :
    (V1 m ρ c main_v17 : S400000x128.Idx → EReal)
      = Cert.ReferenceIdeal.Read.val_main_v17 (F := Ideal) (m ((c : Thread nD τ).loc main_arg0)) (m ((c : Thread nD τ).loc main_arg2)) := by
  dsimp only [V1, W1, hostOps0]
  after_results_simp
  rfl

/-- The predicate rows are the argument's. -/
theorem V1_arg1 (c : Dev nD) : (V1 m ρ c main_arg1 : S400000x128.Idx → EReal) = (m ((c : Thread nD τ).loc main_arg1)) := by
  dsimp only [V1, W1, hostOps0]
  after_results_simp

/-- The first layer's weights, after a change of format that is the identity. -/
theorem V1_v18 (c : Dev nD) : (V1 m ρ c main_v18 : S384x128.Idx → EReal) = (m ((c : Thread nD τ).loc main_arg3)) := by
  dsimp only [V1, W1, hostOps0]
  after_results_simp
  rfl

/-- The second layer's weights, after a change of format that is the identity. -/
theorem V1_v19 (c : Dev nD) : (V1 m ρ c main_v19 : S128x384.Idx → EReal) = (m ((c : Thread nD τ).loc main_arg5)) := by
  dsimp only [V1, W1, hostOps0]
  after_results_simp
  rfl

/-- The first bias as a row. -/
theorem V1_v20 (c : Dev nD) :
    (V1 m ρ c main_v20 : S1x128.Idx → EReal) = shapeCast S1x128 (m ((c : Thread nD τ).loc main_arg4)) shapeCasts_S128_S1x128 := by
  dsimp only [V1, W1, hostOps0]
  after_results_simp
  rfl

/-- The second bias as a row. -/
theorem V1_v21 (c : Dev nD) :
    (V1 m ρ c main_v21 : S1x384.Idx → EReal) = shapeCast S1x384 (m ((c : Thread nD τ).loc main_arg6)) shapeCasts_S384_S1x384 := by
  dsimp only [V1, W1, hostOps0]
  after_results_simp
  rfl

/-! ## Between the calls -/

/-- A stream of 800000 node indices made scatter indices: a negative index moved up by the number of nodes, then a
    unit trailing axis. -/
def nrm800 (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 100000#32))) v)

/-- The pooled sums as the kernel's host code computes them: ONE scatter-add, into zeros, of the subject outputs
    `ns` followed by the object outputs `no`, at the subject indices `a` followed by the object indices `b`. -/
def pooledK (ns no : S400000x128.Idx → EReal) (a b : IVec S400000 32) : S100000x128.Idx → EReal :=
  Host.scatterAdd (F := Ideal) scatter_S100000x128_S800000x1_S800000x128_1_0_0_1
    (broadcastInDim S100000x128 ![] bcast_S_S100000x128 (constant (F := Ideal) S_ .f32 0x00000000#32))
    (nrm800 (concatenate S800000 0 [⟨S400000, a⟩, ⟨S400000, b⟩] concatenates_S400000_S400000_S800000_d0))
    (concatenate S800000x128 0 [⟨S400000x128, ns⟩, ⟨S400000x128, no⟩] concatenates_S400000x128_S400000x128_S800000x128_d0)

/-- The incidence counts as the kernel's host code computes them: one scatter-add of 800000 ones into zeros. -/
def countsK (a b : IVec S400000 32) : S100000.Idx → EReal :=
  Host.scatterAdd (F := Ideal) scatter_S100000_S800000x1_S800000_n_0_0_1
    (broadcastInDim S100000 ![] bcast_S_S100000 (constant (F := Ideal) S_ .f32 0x00000000#32))
    (nrm800 (concatenate S800000 0 [⟨S400000, a⟩, ⟨S400000, b⟩] concatenates_S400000_S400000_S800000_d0))
    (broadcastInDim S800000 ![] bcast_S_S800000 (constant (F := Ideal) S_ .f32 0x3F800000#32))

/-- The subject indices survive the first call. -/
theorem W2_v1 (c : Dev nD) :
    (W2 m ρ c (Proc.devRef .tc main_v1) : S400000.Idx → BitVec 32)
      = Cert.ReferenceIdeal.Read.val_main_v1 (F := Ideal) (m ((c : Thread nD τ).loc main_arg2)) :=
  (W2_of_ne m ρ c main_v1 (by decide)).trans (by
    dsimp only [W1, hostOps0]
    after_results_simp
    rfl)

/-- The object indices survive the first call. -/
theorem W2_v3 (c : Dev nD) :
    (W2 m ρ c (Proc.devRef .tc main_v3) : S400000.Idx → BitVec 32)
      = Cert.ReferenceIdeal.Read.val_main_v3 (F := Ideal) (m ((c : Thread nD τ).loc main_arg2)) :=
  (W2_of_ne m ρ c main_v3 (by decide)).trans (by
    dsimp only [W1, hostOps0]
    after_results_simp
    rfl)

/-- Argument 7 is untouched up to the second stretch. -/
theorem W2_arg7 (c : Dev nD) : W2 m ρ c (Proc.devRef .tc main_arg7) = (m ((c : Thread nD τ).loc main_arg7)) :=
  (W2_of_ne m ρ c main_arg7 (by decide)).trans (by
    dsimp only [W1, hostOps0]
    after_results_simp)

/-- Argument 8 is untouched up to the second stretch. -/
theorem W2_arg8 (c : Dev nD) : W2 m ρ c (Proc.devRef .tc main_arg8) = (m ((c : Thread nD τ).loc main_arg8)) :=
  (W2_of_ne m ρ c main_arg8 (by decide)).trans (by
    dsimp only [W1, hostOps0]
    after_results_simp)

/-- Argument 9 is untouched up to the second stretch. -/
theorem W2_arg9 (c : Dev nD) : W2 m ρ c (Proc.devRef .tc main_arg9) = (m ((c : Thread nD τ).loc main_arg9)) :=
  (W2_of_ne m ρ c main_arg9 (by decide)).trans (by
    dsimp only [W1, hostOps0]
    after_results_simp)

/-- Argument 10 is untouched up to the second stretch. -/
theorem W2_arg10 (c : Dev nD) : W2 m ρ c (Proc.devRef .tc main_arg10) = (m ((c : Thread nD τ).loc main_arg10)) :=
  (W2_of_ne m ρ c main_arg10 (by decide)).trans (by
    dsimp only [W1, hostOps0]
    after_results_simp)

/-! ## At the second call's entry -/

/-- The pooled sums, from the edge network's subject and object outputs as the first call left them. -/
theorem V3_v32 (c : Dev nD) :
    (V3 m ρ c main_v32 : S100000x128.Idx → EReal)
      = pooledK (W2 m ρ c (Proc.devRef .tc main_v22_0)) (W2 m ρ c (Proc.devRef .tc main_v22_2))
          (Cert.ReferenceIdeal.Read.val_main_v1 (F := Ideal) (m ((c : Thread nD τ).loc main_arg2)))
          (Cert.ReferenceIdeal.Read.val_main_v3 (F := Ideal) (m ((c : Thread nD τ).loc main_arg2))) := by
  rw [← W2_v1 m ρ c, ← W2_v3 m ρ c]
  dsimp only [V3, W3, hostOps1]
  after_results_simp
  rfl

/-- The incidence counts as a column. -/
theorem V3_v42 (c : Dev nD) :
    (V3 m ρ c main_v42 : S100000x1.Idx → EReal)
      = shapeCast S100000x1 (countsK (Cert.ReferenceIdeal.Read.val_main_v1 (F := Ideal) (m ((c : Thread nD τ).loc main_arg2)))
          (Cert.ReferenceIdeal.Read.val_main_v3 (F := Ideal) (m ((c : Thread nD τ).loc main_arg2)))) shapeCasts_S100000_S100000x1 := by
  rw [← W2_v1 m ρ c, ← W2_v3 m ρ c]
  dsimp only [V3, W3, hostOps1]
  after_results_simp
  rfl

/-- The object network's first weights. -/
theorem V3_v43 (c : Dev nD) : (V3 m ρ c main_v43 : S128x128.Idx → EReal) = (m ((c : Thread nD τ).loc main_arg7)) := by
  rw [← W2_arg7 m ρ c]
  dsimp only [V3, W3, hostOps1]
  after_results_simp
  rfl

/-- The object network's second weights. -/
theorem V3_v44 (c : Dev nD) : (V3 m ρ c main_v44 : S128x128.Idx → EReal) = (m ((c : Thread nD τ).loc main_arg9)) := by
  rw [← W2_arg9 m ρ c]
  dsimp only [V3, W3, hostOps1]
  after_results_simp
  rfl

/-- The object network's first bias as a row. -/
theorem V3_v45 (c : Dev nD) :
    (V3 m ρ c main_v45 : S1x128.Idx → EReal) = shapeCast S1x128 (m ((c : Thread nD τ).loc main_arg8)) shapeCasts_S128_S1x128 := by
  rw [← W2_arg8 m ρ c]
  dsimp only [V3, W3, hostOps1]
  after_results_simp
  rfl

/-- The object network's second bias as a row. -/
theorem V3_v46 (c : Dev nD) :
    (V3 m ρ c main_v46 : S1x128.Idx → EReal) = shapeCast S1x128 (m ((c : Thread nD τ).loc main_arg10)) shapeCasts_S128_S1x128 := by
  rw [← W2_arg10 m ρ c]
  dsimp only [V3, W3, hostOps1]
  after_results_simp
  rfl

/-! ## At the return -/

/-- The predicate output is what the first call's write-backs left: nothing later writes it. -/
theorem W4_v22_1 (c : Dev nD) :
    W4 m ρ c (Proc.devRef .tc main_v22_1) = (dat0 (V1 m ρ) c).arrAt 8 cfg0.N :=
  calc W4 m ρ c (Proc.devRef .tc main_v22_1)
    _ = W3 m ρ c (Proc.devRef .tc main_v22_1) := W4_of_ne m ρ c main_v22_1 (by decide)
    _ = W2 m ρ c (Proc.devRef .tc main_v22_1) := by
          dsimp only [W3, hostOps1]
          after_results_simp
    _ = (dat0 (V1 m ρ) c).arrAt 8 cfg0.N := W2_arr m ρ c 8

/-- The object output is what the second call's write-backs left. -/
theorem W4_v47 (c : Dev nD) :
    W4 m ρ c (Proc.devRef .tc main_v47) = (dat1 (V3 m ρ) c).arrAt 6 cfg1.N := W4_arr m ρ c 6

/-- The subject output is what the first call's write-backs left. -/
theorem W2_v22_0 (c : Dev nD) :
    W2 m ρ c (Proc.devRef .tc main_v22_0) = (dat0 (V1 m ρ) c).arrAt 7 cfg0.N := W2_arr m ρ c 7

/-- The object-side output is what the first call's write-backs left. -/
theorem W2_v22_2 (c : Dev nD) :
    W2 m ρ c (Proc.devRef .tc main_v22_2) = (dat0 (V1 m ρ) c).arrAt 9 cfg0.N := W2_arr m ρ c 9

end Cert.HostStretch

end
-- ==== Proof.LibScatterRows.lean ====
/-
  A ROW SCATTER WITH AN ADDING BODY, READ AT AN INDEX.

  The scatter that a segment sum over rows lowers to: operand `[N, C]`, scatter indices `[E, 1]`, updates `[E, C]`,
  update window axes `[1]`, inserted window axes `[0]`, scatter-dims-to-operand-dims `[0]`, index vector axis `1`.
  Update row `e` is added, column by column, into operand row `idx[e, 0]` (read as a signed integer, not clamped);
  a row whose index falls outside `[0, N)` is dropped. Over the extended reals the result at `(n, c)` is therefore
  the operand's element plus the sum of `upd (e, c)` over the rows `e` with `idx[e, 0] = n`.
-/
import Idealize.ShloMosaic.Lib.ValueIdx

noncomputable section

open scoped BigOperators

namespace Cert.RowScatter

open Idealize.ShloMosaic Idealize.ShloMosaic.ValueIdx

/-- The dimension numbers of a row scatter: operand `[N, C]`, scatter indices `[E, 1]`, updates `[E, C]`; the
    updates' axis 1 is the window axis and goes to the operand's axis 1, the operand's axis 0 is inserted and is the
    one the (one-component) scatter index addresses. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On operand axis 0 the window of update index `(e, c')` starts at the scatter index `idx[e, 0]`, read signed. -/
theorem start_zero {N E C w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 0 = (idx (ix2 e ⟨0, Nat.one_pos⟩)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On operand axis 1, which the scatter index does not address, every window starts at `0`. -/
theorem start_one {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) :
    (rowScatterDims N E C wf).start j idx 1 = 0 := by
  unfold ScatterDims.start
  rw [dif_neg]
  show ¬ ((1 : Fin 2) ∈ [(0 : Fin 2)])
  decide

/-- On the inserted operand axis 0 the window coordinate is `0`. -/
theorem window_zero {N E C : Nat} (wf : ScatterDims.WF ⟨2, ![N, C]⟩ ⟨2, ![E, 1]⟩ ⟨2, ![E, C]⟩ [1] [0] [0] 1)
    (j : (⟨2, ![E, C]⟩ : Shape).Idx) :
    (rowScatterDims N E C wf).window j 0 = 0 := by
  unfold ScatterDims.window
  rw [dif_neg]
  show ¬ ((0 : Fin 2) ∈ [(1 : Fin 2)])
  decide

/-- On operand axis 1 the window coordinate is the update index's column. -/
theorem window_one {N E C : Nat} (wf : ScatterDims.WF ⟨2, ![N, C]⟩ ⟨2, ![E, 1]⟩ ⟨2, ![E, C]⟩ [1] [0] [0] 1)
    (j : (⟨2, ![E, C]⟩ : Shape).Idx) :
    (rowScatterDims N E C wf).window j 1 = (j 1).val := by
  unfold ScatterDims.window
  rw [dif_pos (show (1 : Fin 2) ∈ (rowScatterDims N E C wf).sKept from
    (show (1 : Fin 2) ∈ [(1 : Fin 2)] from List.mem_singleton.mpr rfl))]
  rfl

/-- For any scatter dimension numbers: update index `j` lands on operand index `i` exactly when, on every operand
    axis, the (signed) start plus the window coordinate is `i`'s coordinate. The in-range condition is then automatic,
    since `i`'s coordinates are in range. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hb
      have := congrFun (Option.some.inj h) a
      have hv := congrArg Fin.val this
      simp only at hv
      have := hb a
      omega
    · exact absurd h (by simp)
  · intro h
    have hb : ∀ a, 0 ≤ d.start j idx a + (d.window j a : Int) ∧ d.start j idx a + (d.window j a : Int) < s.size a := by
      intro a; have := h a; have := (i a).isLt; omega
    rw [dif_pos hb]
    congr 1
    funext a
    refine Fin.ext ?_
    have := h a
    show (d.start j idx a + (d.window j a : Int)).toNat = (i a).val
    omega

/-- Update index `(e, c')` lands on operand index `(n, c)` exactly when the scatter index `idx[e, 0]`, read as a
    signed integer, is `n`, and the columns agree. -/
theorem resultIdx_rows_iff {N E C w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e ⟨0, Nat.one_pos⟩)).toInt = (n.val : Int) ∧ c' = c := by
  rw [resultIdx?_eq_some_iff]
  constructor
  · intro h
    have h0 : (idx (ix2 e ⟨0, Nat.one_pos⟩)).toInt + ((0 : Nat) : Int) = (n.val : Int) := by
      have := h 0; rwa [start_zero, window_zero] at this
    have h1 : (0 : Int) + (c'.val : Int) = (c.val : Int) := by
      have := h 1; rwa [start_one, window_one] at this
    refine ⟨?_, Fin.ext ?_⟩
    · omega
    · omega
  · rintro ⟨h0, rfl⟩ a
    match a with
    | ⟨0, _⟩ =>
      show (rowScatterDims N E C wf).start (ix2 e c') idx 0 + ((rowScatterDims N E C wf).window (ix2 e c') 0 : Int) = _
      rw [start_zero, window_zero, h0]
      show (n.val : Int) + ((0 : Nat) : Int) = (n.val : Int)
      omega
    | ⟨1, _⟩ =>
      show (rowScatterDims N E C wf).start (ix2 e c') idx 1 + ((rowScatterDims N E C wf).window (ix2 e c') 1 : Int) = _
      rw [start_one, window_one]
      show (0 : Int) + (c'.val : Int) = (c'.val : Int)
      omega

/-- The same for an update index not yet split into its coordinates. -/
theorem resultIdx_rows_iff' {N E C w : Nat} (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (n : Fin N) (c : Fin C) :
    (rowScatterDims N E C wf).resultIdx? j idx = some (ix2 n c)
      ↔ (idx (ix2 (j 0 : Fin E) ⟨0, Nat.one_pos⟩)).toInt = (n.val : Int) ∧ (j 1 : Fin C) = c := by
  have h := resultIdx_rows_iff wf idx (j 0) (j 1) n c
  constructor
  · intro hj
    rw [eq_ix2 j] at hj
    exact h.mp hj
  · intro hh
    rw [eq_ix2 j]
    exact h.mpr hh

/-- THE ROW SCATTER READ AT `(n, c)`: the operand's element plus the sum, over the update rows `e` whose scatter index
    `idx[e, 0]` (signed, not clamped) is `n`, of `upd (e, c)`. The update indices landing on `(n, c)` are the
    `(e, c)` with `idx[e, 0] = n`; the sum is re-indexed along `(e, c) ↦ e`. -/
theorem hostScatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatterDims N E C wf) x idx upd (ix2 n c)
      = x (ix2 n c) + ∑ e ∈ Finset.univ.filter (fun e : Fin E => (idx (ix2 e ⟨0, Nat.one_pos⟩)).toInt = (n.val : Int)),
          upd (ix2 e c) := by
  unfold Ideal.hostScatterAdd
  congr 1
  refine Finset.sum_nbij' (fun j => (j 0 : Fin E)) (fun e => ix2 e c) ?_ ?_ ?_ ?_ ?_
  · intro j hj
    have hj' := (Finset.mem_filter.mp hj).2
    exact Finset.mem_filter.mpr ⟨Finset.mem_univ _, ((resultIdx_rows_iff' wf idx j n c).mp hj').1⟩
  · intro e he
    have he' := (Finset.mem_filter.mp he).2
    exact Finset.mem_filter.mpr ⟨Finset.mem_univ _, (resultIdx_rows_iff wf idx e c n c).mpr ⟨he', rfl⟩⟩
  · intro j hj
    have hj' := (Finset.mem_filter.mp hj).2
    have h := ((resultIdx_rows_iff' wf idx j n c).mp hj').2
    rw [← h]; exact (eq_ix2 j).symm
  · intro e _; rfl
  · intro j hj
    have hj' := (Finset.mem_filter.mp hj).2
    have h := ((resultIdx_rows_iff' wf idx j n c).mp hj').2
    rw [← h]; exact congrArg upd (eq_ix2 j)

end Cert.RowScatter

end
-- ==== Proof.LibPaddedSum.lean ====
/-
  Sums over a zero-padded axis. An axis of extent `m` padded with `n` trailing entries splits as the first `m`
  indices and the last `n`; where both factors of a product are padded with zero the padding contributes
  `0 · 0 = 0`, so the sum of products over the padded axis is the sum over the original one. Stated over any
  commutative additive monoid with a multiplication in which `0 · 0 = 0` (the extended reals are one: no distributivity is used).
-/
import Mathlib.Algebra.BigOperators.Fin

namespace PaddedSum

open Finset

variable {M : Type*} [AddCommMonoid M]

/-- A sum over `Fin R`, `R = m + n`, is the sum over the first `m` indices plus the sum over the last `n`. -/
theorem sum_split {R m n : ℕ} (h : m + n = R) (f : Fin R → M) :
    ∑ j, f j = ∑ i : Fin m, f ⟨i.val, by omega⟩ + ∑ i : Fin n, f ⟨m + i.val, by omega⟩ := by
  subst h
  rw [Fin.sum_univ_add]
  rfl

/-- `x` extended by a constant `z` past its extent. -/
def pad {m : ℕ} {α : Type*} (R : ℕ) (z : α) (x : Fin m → α) (j : Fin R) : α :=
  if hj : j.val < m then x ⟨j.val, hj⟩ else z

/-- The sum of products of two zero-padded rows over the padded axis is the sum over the original axis. -/
theorem sum_mul_pad [Mul M] (hz : (0 : M) * 0 = 0) {R m n : ℕ} (h : m + n = R) (a b : Fin m → M) (A B : Fin R → M)
    (hA : ∀ j, A j = pad R 0 a j) (hB : ∀ j, B j = pad R 0 b j) :
    ∑ j, A j * B j = ∑ i, a i * b i := by
  rw [sum_split h]
  have h2 : ∑ i : Fin n, A ⟨m + i.val, by omega⟩ * B ⟨m + i.val, by omega⟩ = 0 := by
    apply sum_eq_zero
    intro i _
    rw [hA, hB, pad, pad, dif_neg (by simp), dif_neg (by simp), hz]
  rw [h2, add_zero]
  apply sum_congr rfl
  intro i _
  rw [hA, hB, pad, pad, dif_pos (by simp), dif_pos (by simp)]

end PaddedSum
-- ==== Proof.LibScatterConcat.lean ====
/-
  A SCATTER-ADD OF TWO CONCATENATED UPDATE STREAMS IS THE TWO SCATTER-ADDS CHAINED.

  A segment sum over rows adds update row `e` into operand row `idx[e]`. When the updates are the concatenation, along the
  update axis, of two streams of `E` rows each, and the indices the concatenation of the two index streams, the update rows
  landing on a given operand row are those of the first stream landing there together with those of the second. The sum
  over `Fin (E + E)` splits into the first `E` and the last `E` indices, so the one scatter equals the first stream
  scattered into the operand and the second scattered into the result: only the commutative-monoid laws of `+` on the
  extended reals are used. The same for a scatter into a vector (operand `[N]`, updates `[R]`), read at an index first.
-/
import Idealize.ShloMosaic.Lib.ValueIdx
import proofs.«176940_j88923002896582_2_alg».proof.Proof.LibScatterRows
import proofs.«176940_j88923002896582_2_alg».proof.Proof.LibPaddedSum

noncomputable section

open scoped BigOperators

namespace Cert.ScatterConcat

open Idealize.ShloMosaic Idealize.ShloMosaic.ValueIdx Cert.RowScatter

/-- A filtered sum over `Fin R`, `R = E + E`, is the filtered sum over the first `E` indices plus that over the last. -/
theorem sum_filter_split {R E : ℕ} (h : E + E = R) (P : Fin R → Prop) [DecidablePred P] (f : Fin R → EReal) :
    ∑ e ∈ Finset.univ.filter P, f e
      = ∑ e ∈ Finset.univ.filter (fun e : Fin E => P ⟨e.val, by omega⟩), f ⟨e.val, by omega⟩
        + ∑ e ∈ Finset.univ.filter (fun e : Fin E => P ⟨E + e.val, by omega⟩), f ⟨E + e.val, by omega⟩ := by
  rw [Finset.sum_filter, Finset.sum_filter, Finset.sum_filter, PaddedSum.sum_split h]

/-- ROWS: the scatter of the concatenated streams is the chained scatters. `iab` / `AB` are the concatenated indices and
    updates, known only by what they hold at the first `E` and the last `E` rows. -/
theorem rows_concat {N E R C w : ℕ} (h : E + E = R)
    (wfE : ScatterDims.WF ⟨2, ![N, C]⟩ ⟨2, ![E, 1]⟩ ⟨2, ![E, C]⟩ [1] [0] [0] 1)
    (wfR : ScatterDims.WF ⟨2, ![N, C]⟩ ⟨2, ![R, 1]⟩ ⟨2, ![R, C]⟩ [1] [0] [0] 1)
    (x : (⟨2, ![N, C]⟩ : Shape).Idx → EReal)
    (ia ib : IVec ⟨2, ![E, 1]⟩ w) (iab : IVec ⟨2, ![R, 1]⟩ w)
    (A B : (⟨2, ![E, C]⟩ : Shape).Idx → EReal) (AB : (⟨2, ![R, C]⟩ : Shape).Idx → EReal)
    (hia : ∀ e : Fin E, iab (ix2 ⟨e.val, by omega⟩ ⟨0, Nat.one_pos⟩) = ia (ix2 e ⟨0, Nat.one_pos⟩))
    (hib : ∀ e : Fin E, iab (ix2 ⟨E + e.val, by omega⟩ ⟨0, Nat.one_pos⟩) = ib (ix2 e ⟨0, Nat.one_pos⟩))
    (hA : ∀ (e : Fin E) (c : Fin C), AB (ix2 ⟨e.val, by omega⟩ c) = A (ix2 e c))
    (hB : ∀ (e : Fin E) (c : Fin C), AB (ix2 ⟨E + e.val, by omega⟩ c) = B (ix2 e c)) :
    Ideal.hostScatterAdd (rowScatterDims N R C wfR) x iab AB
      = Ideal.hostScatterAdd (rowScatterDims N E C wfE) (Ideal.hostScatterAdd (rowScatterDims N E C wfE) x ia A) ib B := by
  funext i
  obtain ⟨n, c, rfl⟩ : ∃ (n : Fin N) (c : Fin C), i = ix2 n c := ⟨i 0, i 1, eq_ix2 i⟩
  rw [hostScatterAdd_rows_apply, hostScatterAdd_rows_apply, hostScatterAdd_rows_apply, add_assoc]
  congr 1
  rw [sum_filter_split h]
  simp only [hia, hib, hA, hB]

/-! ## A scatter into a vector -/

/-- The dimension numbers of a scatter into a vector: operand `[N]`, scatter indices `[R, 1]`, updates `[R]`; no window
    axis, the operand's one axis inserted and addressed by the (one-component) scatter index. -/
abbrev vecScatterDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The window of update index `e` starts at the scatter index `idx[e, 0]`, read signed. -/
theorem vstart {N R w : Nat} (wf : ScatterDims.WF ⟨1, ![N]⟩ ⟨2, ![R, 1]⟩ ⟨1, ![R]⟩ [] [0] [0] 1)
    (idx : IVec ⟨2, ![R, 1]⟩ w) (e : Fin R) :
    (vecScatterDims N R wf).start (ix1 e) idx 0 = (idx (ix2 e ⟨0, Nat.one_pos⟩)).toInt := by
  unfold ScatterDims.start
  rw [dif_pos (show (0 : Fin 1) ∈ (vecScatterDims N R wf).scatterDimsToOperandDims from List.mem_singleton.mpr rfl)]
  have hsi : (vecScatterDims N R wf).siIdx (ix1 e)
      ⟨List.idxOf (0 : Fin 1) (vecScatterDims N R wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the inserted operand axis the window coordinate is `0`. -/
theorem vwindow {N R : Nat} (wf : ScatterDims.WF ⟨1, ![N]⟩ ⟨2, ![R, 1]⟩ ⟨1, ![R]⟩ [] [0] [0] 1)
    (j : (⟨1, ![R]⟩ : Shape).Idx) : (vecScatterDims N R wf).window j 0 = 0 := by
  unfold ScatterDims.window
  rw [dif_neg]
  show ¬ ((0 : Fin 1) ∈ ([] : List (Fin 1)))
  exact List.not_mem_nil

/-- Update index `e` lands on operand index `n` exactly when the scatter index `idx[e, 0]`, read signed, is `n`. -/
theorem vresultIdx_iff {N R w : Nat} (wf : ScatterDims.WF ⟨1, ![N]⟩ ⟨2, ![R, 1]⟩ ⟨1, ![R]⟩ [] [0] [0] 1)
    (idx : IVec ⟨2, ![R, 1]⟩ w) (e : Fin R) (n : Fin N) :
    (vecScatterDims N R wf).resultIdx? (ix1 e) idx = some (ix1 n)
      ↔ (idx (ix2 e ⟨0, Nat.one_pos⟩)).toInt = (n.val : Int) := by
  rw [resultIdx?_eq_some_iff]
  constructor
  · intro hh
    have h0 := hh 0
    rw [vstart, vwindow] at h0
    have : ((ix1 n : (⟨1, ![N]⟩ : Shape).Idx) 0).val = n.val := rfl
    rw [this] at h0
    omega
  · intro h0 a
    match a with
    | ⟨0, _⟩ =>
      show (vecScatterDims N R wf).start (ix1 e) idx 0 + ((vecScatterDims N R wf).window (ix1 e) 0 : Int) = _
      rw [vstart, vwindow, h0]
      show (n.val : Int) + ((0 : Nat) : Int) = (n.val : Int)
      omega

/-- THE VECTOR SCATTER READ AT `n`: the operand's element plus the sum, over the updates `e` whose scatter index is
    `n`, of `upd e`. -/
theorem hostScatterAdd_vec_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal) (n : Fin N) :
    Ideal.hostScatterAdd (vecScatterDims N R wf) x idx upd (ix1 n)
      = x (ix1 n) + ∑ e ∈ Finset.univ.filter (fun e : Fin R => (idx (ix2 e ⟨0, Nat.one_pos⟩)).toInt = (n.val : Int)),
          upd (ix1 e) := by
  unfold Ideal.hostScatterAdd
  congr 1
  refine Finset.sum_nbij' (fun j => (j 0 : Fin R)) (fun e => ix1 e) ?_ ?_ ?_ ?_ ?_
  · intro j hj
    have hj' := (Finset.mem_filter.mp hj).2
    rw [eq_ix1 j] at hj'
    exact Finset.mem_filter.mpr ⟨Finset.mem_univ _, (vresultIdx_iff wf idx (j 0) n).mp hj'⟩
  · intro e he
    have he' := (Finset.mem_filter.mp he).2
    exact Finset.mem_filter.mpr ⟨Finset.mem_univ _, (vresultIdx_iff wf idx e n).mpr he'⟩
  · intro j _; exact (eq_ix1 j).symm
  · intro e _; rfl
  · intro j _; exact congrArg upd (eq_ix1 j)

/-- VECTORS: the scatter of the concatenated streams is the chained scatters. -/
theorem vec_concat {N E R w : ℕ} (h : E + E = R)
    (wfE : ScatterDims.WF ⟨1, ![N]⟩ ⟨2, ![E, 1]⟩ ⟨1, ![E]⟩ [] [0] [0] 1)
    (wfR : ScatterDims.WF ⟨1, ![N]⟩ ⟨2, ![R, 1]⟩ ⟨1, ![R]⟩ [] [0] [0] 1)
    (x : (⟨1, ![N]⟩ : Shape).Idx → EReal)
    (ia ib : IVec ⟨2, ![E, 1]⟩ w) (iab : IVec ⟨2, ![R, 1]⟩ w)
    (A B : (⟨1, ![E]⟩ : Shape).Idx → EReal) (AB : (⟨1, ![R]⟩ : Shape).Idx → EReal)
    (hia : ∀ e : Fin E, iab (ix2 ⟨e.val, by omega⟩ ⟨0, Nat.one_pos⟩) = ia (ix2 e ⟨0, Nat.one_pos⟩))
    (hib : ∀ e : Fin E, iab (ix2 ⟨E + e.val, by omega⟩ ⟨0, Nat.one_pos⟩) = ib (ix2 e ⟨0, Nat.one_pos⟩))
    (hA : ∀ e : Fin E, AB (ix1 ⟨e.val, by omega⟩) = A (ix1 e))
    (hB : ∀ e : Fin E, AB (ix1 ⟨E + e.val, by omega⟩) = B (ix1 e)) :
    Ideal.hostScatterAdd (vecScatterDims N R wfR) x iab AB
      = Ideal.hostScatterAdd (vecScatterDims N E wfE) (Ideal.hostScatterAdd (vecScatterDims N E wfE) x ia A) ib B := by
  funext i
  obtain ⟨n, rfl⟩ : ∃ n : Fin N, i = ix1 n := ⟨i 0, eq_ix1 i⟩
  rw [hostScatterAdd_vec_apply, hostScatterAdd_vec_apply, hostScatterAdd_vec_apply, add_assoc]
  congr 1
  rw [sum_filter_split h]
  simp only [hia, hib, hA, hB]

end Cert.ScatterConcat

end
-- ==== Proof.ScatterBridge.lean ====
/-
  The pooled sums and the incidence counts, the kernel's way and the reference's way.

  The kernel's host code scatter-adds ONE stream — the subject rows followed by the object rows, at the subject indices
  followed by the object indices — into zeros; the reference scatter-adds the subject rows, then the object rows into the
  result. A negative index is moved up by the number of nodes entry by entry, so moving the concatenated indices up is
  concatenating the moved-up indices; an entry of the concatenation in the first 400000 positions is the first
  stream's, one in the last 400000 the second's. With that the two agree by the law of the scatter-add of a
  concatenation. The same for the counts, whose updates are all ones.
-/
import proofs.«176940_j88923002896582_2_alg».proof.Proof.HostStretch
import proofs.«176940_j88923002896582_2_alg».proof.Proof.LibScatterConcat
import Idealize.ShloMosaic.Lib.Pipeline.Value

set_option maxRecDepth 16384

noncomputable section

namespace Cert.ScatterBridge

open Cert.KernelIdeal Cert.KernelIdeal.Gen Cert.HostStretch
open Idealize.ShloMosaic Idealize.ShloMosaic.ValueIdx

/-- A stream of 400000 node indices made scatter indices: a negative index moved up by the number of nodes, then a
    unit trailing axis. -/
def nrm400 (v : IVec S400000 32) : IVec S400000x1 32 :=
  broadcastInDim S400000x1 ![0] bcast_S400000_S400000x1_0
    (select (cmpi .slt v (broadcastInDim S400000 ![] bcast_S_S400000 (constantI S_ 32 0#32)))
      (addi v (broadcastInDim S400000 ![] bcast_S_S400000 (constantI S_ 32 100000#32))) v)

/-- The scatter index of position `e` is the moved-up entry `e` of the stream. -/
theorem nrm400_apply (v : IVec S400000 32) (e : Fin 400000) :
    nrm400 v (ix2 e ⟨0, Nat.one_pos⟩)
      = Scalar.select (IntOp.cmpi .slt (v (ix1 e)) 0#32) (IntOp.addi (v (ix1 e)) 100000#32) (v (ix1 e)) := by
  unfold nrm400
  rw [broadcastInDim_apply _ bcast_S400000_S400000x1_0 _ (ix2 e ⟨0, Nat.one_pos⟩) (ix1 e) (fun a => match a with
    | ⟨0, _⟩ => by show e.val = if (400000 : Nat) = 1 then 0 else e.val; rw [if_neg (by decide)])]
  rfl

/-- The same for a stream of 800000. -/
theorem nrm800_apply (v : IVec S800000 32) (e : Fin 800000) :
    nrm800 v (ix2 e ⟨0, Nat.one_pos⟩)
      = Scalar.select (IntOp.cmpi .slt (v (ix1 e)) 0#32) (IntOp.addi (v (ix1 e)) 100000#32) (v (ix1 e)) := by
  unfold nrm800
  rw [broadcastInDim_apply _ bcast_S800000_S800000x1_0 _ (ix2 e ⟨0, Nat.one_pos⟩) (ix1 e) (fun a => match a with
    | ⟨0, _⟩ => by show e.val = if (800000 : Nat) = 1 then 0 else e.val; rw [if_neg (by decide)])]
  rfl

/-- An entry of two concatenated index streams in the first 400000 positions is the first stream's. -/
theorem cat_idx_left (a b : IVec S400000 32) (e : Fin 400000) :
    concatenate S800000 0 [⟨S400000, a⟩, ⟨S400000, b⟩] concatenates_S400000_S400000_S800000_d0
        (ix1 (⟨e.val, by omega⟩ : Fin 800000)) = a (ix1 e) :=
  concatenate_pair_apply_left 0 a b concatenates_S400000_S400000_S800000_d0 _ rfl (ix1 e)
    (fun d => match d with | ⟨0, _⟩ => rfl)

/-- An entry in the last 400000 positions is the second stream's. -/
theorem cat_idx_right (a b : IVec S400000 32) (e : Fin 400000) :
    concatenate S800000 0 [⟨S400000, a⟩, ⟨S400000, b⟩] concatenates_S400000_S400000_S800000_d0
        (ix1 (⟨400000 + e.val, by omega⟩ : Fin 800000)) = b (ix1 e) :=
  concatenate_pair_apply_right 0 a b concatenates_S400000_S400000_S800000_d0 _ rfl rfl (ix1 e)
    (fun d hd => match d with | ⟨0, _⟩ => absurd rfl hd)
    (by show e.val + 400000 = 400000 + e.val; omega)

/-- A row of two concatenated row streams in the first 400000 positions is the first stream's. -/
theorem cat_rows_left (A B : S400000x128.Idx → EReal) (e : Fin 400000) (c : Fin 128) :
    concatenate S800000x128 0 [⟨S400000x128, A⟩, ⟨S400000x128, B⟩] concatenates_S400000x128_S400000x128_S800000x128_d0
        (ix2 (⟨e.val, by omega⟩ : Fin 800000) c) = A (ix2 e c) :=
  concatenate_pair_apply_left 0 A B concatenates_S400000x128_S400000x128_S800000x128_d0 _ rfl (ix2 e c)
    (fun d => match d with | ⟨0, _⟩ => rfl | ⟨1, _⟩ => rfl)

/-- A row in the last 400000 positions is the second stream's. -/
theorem cat_rows_right (A B : S400000x128.Idx → EReal) (e : Fin 400000) (c : Fin 128) :
    concatenate S800000x128 0 [⟨S400000x128, A⟩, ⟨S400000x128, B⟩] concatenates_S400000x128_S400000x128_S800000x128_d0
        (ix2 (⟨400000 + e.val, by omega⟩ : Fin 800000) c) = B (ix2 e c) :=
  concatenate_pair_apply_right 0 A B concatenates_S400000x128_S400000x128_S800000x128_d0 _ rfl rfl (ix2 e c)
    (fun d hd => match d with | ⟨0, _⟩ => absurd rfl hd | ⟨1, _⟩ => rfl)
    (by show e.val + 400000 = 400000 + e.val; omega)

/-- THE POOLED SUMS: the one scatter-add of the concatenated streams is the two chained scatter-adds. -/
theorem pooledK_eq (ns no : S400000x128.Idx → EReal) (a b : IVec S400000 32) :
    pooledK ns no a b
      = Ideal.hostScatterAdd Cert.ReferenceIdeal.scatter_S100000x128_S400000x1_S400000x128_1_0_0_1
          (Ideal.hostScatterAdd Cert.ReferenceIdeal.scatter_S100000x128_S400000x1_S400000x128_1_0_0_1
            (broadcastInDim S100000x128 ![] bcast_S_S100000x128 (constant (F := Ideal) S_ .f32 0x00000000#32))
            (nrm400 a) ns)
          (nrm400 b) no :=
  ScatterConcat.rows_concat (N := 100000) (E := 400000) (R := 800000) (C := 128) (w := 32) rfl
    Cert.ReferenceIdeal.scatter_S100000x128_S400000x1_S400000x128_1_0_0_1.wf
    scatter_S100000x128_S800000x1_S800000x128_1_0_0_1.wf _ (nrm400 a) (nrm400 b) _ ns no _
    (fun e => by rw [nrm800_apply, nrm400_apply, cat_idx_left])
    (fun e => by rw [nrm800_apply, nrm400_apply, cat_idx_right])
    (fun e c => cat_rows_left ns no e c)
    (fun e c => cat_rows_right ns no e c)

/-- THE INCIDENCE COUNTS: the one scatter-add of 800000 ones is the two chained scatter-adds of 400000 ones. -/
theorem countsK_eq (a b : IVec S400000 32) :
    countsK a b
      = Ideal.hostScatterAdd Cert.ReferenceIdeal.scatter_S100000_S400000x1_S400000_n_0_0_1
          (Ideal.hostScatterAdd Cert.ReferenceIdeal.scatter_S100000_S400000x1_S400000_n_0_0_1
            (broadcastInDim S100000 ![] bcast_S_S100000 (constant (F := Ideal) S_ .f32 0x00000000#32))
            (nrm400 a) (broadcastInDim S400000 ![] bcast_S_S400000 (constant (F := Ideal) S_ .f32 0x3F800000#32)))
          (nrm400 b) (broadcastInDim S400000 ![] bcast_S_S400000 (constant (F := Ideal) S_ .f32 0x3F800000#32)) :=
  ScatterConcat.vec_concat (N := 100000) (E := 400000) (R := 800000) (w := 32) rfl
    Cert.ReferenceIdeal.scatter_S100000_S400000x1_S400000_n_0_0_1.wf
    scatter_S100000_S800000x1_S800000_n_0_0_1.wf _ (nrm400 a) (nrm400 b) _ _ _ _
    (fun e => by rw [nrm800_apply, nrm400_apply, cat_idx_left])
    (fun e => by rw [nrm800_apply, nrm400_apply, cat_idx_right])
    (fun e => rfl)
    (fun e => rfl)

end Cert.ScatterBridge

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.Spec.lean ====
/-
  The mathematics both programs compute, row by row, on the extended reals.

  An EDGE row: from the subject row `s`, the predicate row `p` and the object row `o` (128 entries each), a first layer
  of 128 hidden units  h k = max (s·A₀[:,k] + p·A₁[:,k] + o·A₂[:,k] + b k) 0, where A₀, A₁, A₂ are the three 128-row
  bands of the 384×128 weight matrix, and a second layer of 384 outputs  y j = max (Σ_k h k · W k j + b' j) 0.
  The three sums are kept apart and added in the order (s + p) + o: no law beyond the monoid laws of + joins this
  grouping to a single sum over the 384 concatenated entries.

  An OBJECT row: the pooled row `x` divided entry by entry by its incidence count clipped into [1, 1000], then two
  layers of the same form, 128 → 128 → 128.

  Nothing here mentions a program: rows are functions on `Fin 128`, weight matrices functions of two coordinates.
  The float literals 0, 1 and 1000 stay as their words.
-/
import Idealize.ShloMosaic.PureOps.Ideal
import Idealize.ShloMosaic.Lib.ValueIdx

noncomputable section

open scoped BigOperators

namespace Cert.Spec

open Idealize.ShloMosaic Idealize.ShloMosaic.ValueIdx

/-- The float word of 0. -/
abbrev zero : EReal := Ideal.ofBits .f32 0x00000000#32
/-- The float word of 1. -/
abbrev one : EReal := Ideal.ofBits .f32 0x3F800000#32
/-- The float word of 1000. -/
abbrev thousand : EReal := Ideal.ofBits .f32 0x447A0000#32

/-- Hidden unit `k` of an edge row: the three band products summed as (s + p) + o, plus the bias, rectified. -/
def hidRow (s p o : Fin 128 → EReal) (w1a : Fin 384 → Fin 128 → EReal) (b1a : Fin 128 → EReal) (k : Fin 128) : EReal :=
  max ((((∑ i : Fin 128, s i * w1a ⟨i.val, by omega⟩ k) + ∑ i : Fin 128, p i * w1a ⟨128 + i.val, by omega⟩ k)
      + ∑ i : Fin 128, o i * w1a ⟨256 + i.val, by omega⟩ k) + b1a k) zero

/-- Output `j` (of 384) of an edge row. -/
def outRow (s p o : Fin 128 → EReal) (w1a : Fin 384 → Fin 128 → EReal) (b1a : Fin 128 → EReal)
    (w1b : Fin 128 → Fin 384 → EReal) (b1b : Fin 384 → EReal) (j : Fin 384) : EReal :=
  max ((∑ k : Fin 128, hidRow s p o w1a b1a k * w1b k j) + b1b j) zero

/-- An incidence count clipped into [1, 1000]. -/
def clipCount (c : EReal) : EReal := min thousand (max one c)

/-- Hidden unit `k` of an object row: the pooled row over its clipped count, through the first layer. -/
def objHid (x : Fin 128 → EReal) (c : EReal) (w2a : Fin 128 → Fin 128 → EReal) (b2a : Fin 128 → EReal) (k : Fin 128) : EReal :=
  max ((∑ i : Fin 128, Ideal.div (x i) (clipCount c) * w2a i k) + b2a k) zero

/-- Output `j` (of 128) of an object row. -/
def objRow (x : Fin 128 → EReal) (c : EReal) (w2a : Fin 128 → Fin 128 → EReal) (b2a : Fin 128 → EReal)
    (w2b : Fin 128 → Fin 128 → EReal) (b2b : Fin 128 → EReal) (j : Fin 128) : EReal :=
  max ((∑ k : Fin 128, objHid x c w2a b2a k * w2b k j) + b2b j) zero

/-- A matrix as a function of its index. -/
abbrev Mat (a b : Nat) : Type := (⟨2, ![a, b]⟩ : Shape).Idx → EReal
/-- A vector as a function of its index. -/
abbrev Vc (a : Nat) : Type := (⟨1, ![a]⟩ : Shape).Idx → EReal

/-- Row `r` of a matrix. -/
def row {a b : Nat} (X : Mat a b) (r : Fin a) : Fin b → EReal := fun k => X (ix2 r k)
/-- A matrix by its two coordinates. -/
def mat {a b : Nat} (X : Mat a b) : Fin a → Fin b → EReal := fun r k => X (ix2 r k)
/-- A vector by its coordinate. -/
def vec {a : Nat} (v : Vc a) : Fin a → EReal := fun k => v (ix1 k)
/-- The one row of a `[1, b]` matrix (a bias kept with a unit leading axis). -/
def row0 {b : Nat} (X : Mat 1 b) : Fin b → EReal := fun k => X (ix2 ⟨0, Nat.one_pos⟩ k)

/-- The 128-column band at column offset `off` of the edge network's 384 outputs, over all edges, from the gathered
    subject rows `S`, the predicate rows `P`, the gathered object rows `O` and the network's parameters. -/
def edgeOut (S P O : Mat 400000 128) (w1a : Mat 384 128) (b1a : Vc 128) (w1b : Mat 128 384) (b1b : Vc 384)
    (off : Nat) (h : off + 128 ≤ 384) : Mat 400000 128 :=
  fun i => outRow (row S (i 0)) (row P (i 0)) (row O (i 0)) (mat w1a) (vec b1a) (mat w1b) (vec b1b)
    ⟨off + (i 1 : Fin 128).val, by have h1 : (i 1 : Fin 128).val < 128 := (i 1 : Fin 128).isLt; omega⟩

/-- The object network's output over all objects, from the pooled rows, the incidence counts and the parameters. -/
def objOut (pooled : Mat 100000 128) (counts : Vc 100000) (w2a : Mat 128 128) (b2a : Vc 128) (w2b : Mat 128 128)
    (b2b : Vc 128) : Mat 100000 128 :=
  fun i => objRow (row pooled (i 0)) (counts (ix1 (i 0))) (mat w2a) (vec b2a) (mat w2b) (vec b2b) (i 1)

end Cert.Spec

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.EdgeRegion.lean ====
/-
  The edge network, one block of rows at a time, and over the whole array.

  A block is 3200 consecutive edges. For each edge the body reads the subject row, the predicate row and the object
  row of the block (128 entries each), multiplies them by the three 128-row bands of the 384×128 first-layer weight
  matrix — the bands at row offsets 0, 128 and 256 —, adds the three products in the order (s + p) + o, adds the
  bias row and rectifies; the 128 hidden units then go through the 128×384 second layer in the same way. The 384
  outputs of an edge are written as three 128-column bands, one per output array: the band at column offset 0,
  the band at offset 128 and the band at offset 256.

  First the body's value at one entry of a block, from the blocks it reads; then, since row r of an array sits in
  block r / 3200 at row r % 3200, the three arrays after all 125 blocks have been written.
-/
import proofs.«176940_j88923002896582_2_alg».proof.Proof.Gen.KernelIdeal.Frame
import proofs.«176940_j88923002896582_2_alg».proof.Proof.Spec
import proofs.«176940_j88923002896582_2_alg».proof.Proof.LibPlainMatmul
import proofs.«176940_j88923002896582_2_alg».proof.Proof.LibRowBroadcast

set_option maxRecDepth 16384

noncomputable section

open scoped BigOperators

namespace Cert.EdgeRegion

open Idealize.ShloMosaic Idealize.ShloMosaic.ValueIdx
open Cert.KernelIdeal Cert.KernelIdeal.Gen

/-! ## The three bands of the first layer's weights -/

/-- The band at row offset 0: place (a, b) of the band is place (a, b) of the matrix. -/
theorem idx_band0 (a b : Fin 128) : r0_1.idx (ix2 a b) = ix2 ⟨a.val, by omega⟩ b := by
  refine funext fun d => Fin.ext ?_
  match d with
  | ⟨0, _⟩ => show 0 + 1 * a.val = a.val; omega
  | ⟨1, _⟩ => show 0 + 1 * b.val = b.val; omega

/-- The band at row offset 128: place (a, b) of the band is place (128 + a, b) of the matrix. -/
theorem idx_band1 (a b : Fin 128) : r0_2.idx (ix2 a b) = ix2 ⟨128 + a.val, by omega⟩ b := by
  refine funext fun d => Fin.ext ?_
  match d with
  | ⟨0, _⟩ => show 128 + 1 * a.val = 128 + a.val; omega
  | ⟨1, _⟩ => show 0 + 1 * b.val = b.val; omega

/-- The band at row offset 256: place (a, b) of the band is place (256 + a, b) of the matrix. -/
theorem idx_band2 (a b : Fin 128) : r0_3.idx (ix2 a b) = ix2 ⟨256 + a.val, by omega⟩ b := by
  refine funext fun d => Fin.ext ?_
  match d with
  | ⟨0, _⟩ => show 256 + 1 * a.val = 256 + a.val; omega
  | ⟨1, _⟩ => show 0 + 1 * b.val = b.val; omega

/-! ## The two products are plain matrix products -/

theorem dims1 : dot_S3200x128_S128x128_S3200x128_1_0_0_1_n_n = DotDims.plain 3200 128 128 := rfl
theorem dims2 : dot_S3200x128_S128x384_S3200x384_1_0_0_1_n_n = DotDims.plain 3200 128 384 := rfl

/-! ## The body's value at an entry -/

/-- All 384 outputs of row p of a block, from the rows and matrices the body was given. -/
theorem pay4_apply (v0 v3 v5 : Vec Ideal S3200x128 .f32) (v8 v10 v12 : Vec Ideal S128x128 .bf16) (v19 : Vec Ideal S1x128 .f32)
    (v26 : Vec Ideal S128x384 .bf16) (v29 : Vec Ideal S1x384 .f32) (p : Fin 3200) (j : Fin 384) :
    k0_pay4 (F := Ideal) v0 v3 v5 v8 v10 v12 v19 v26 v29 (ix2 p j)
      = max ((∑ k : Fin 128,
            max ((((∑ i : Fin 128, v0 (ix2 p i) * v8 (ix2 i k)) + ∑ i : Fin 128, v3 (ix2 p i) * v10 (ix2 i k))
              + ∑ i : Fin 128, v5 (ix2 p i) * v12 (ix2 i k)) + v19 (ix2 ⟨0, Nat.one_pos⟩ k)) Spec.zero * v26 (ix2 k j))
          + v29 (ix2 ⟨0, Nat.one_pos⟩ j)) Spec.zero := by
  unfold k0_pay4
  simp only [shapeCast_self]
  rw [dims1, dims2]
  simp only [maximumf_apply, addf_apply, broadcast_apply, truncf_apply, matmul_plain_zero_apply,
    LibRowBroadcast.broadcastTo_1b_ab_apply _ _ _ _ ⟨0, Nat.one_pos⟩]
  rfl

/-- The zero offsets of a whole-buffer access, as a function. -/
theorem hz : (![0, 0] : Fin 2 → Nat) = fun _ => 0 := funext fun a => by fin_cases a <;> rfl

/-- The 384 outputs of every row of a block, from the blocks the body reads. -/
def wide (x0 x1 x2 : Vec Ideal S3200x128 .f32) (x3 : Vec Ideal S384x128 .bf16) (x4 : Vec Ideal S1x128 .f32)
    (x5 : Vec Ideal S128x384 .bf16) (x6 : Vec Ideal S1x384 .f32) : FVec Ideal S3200x384 .f32 :=
  k0_pay4 (F := Ideal) (View.ld x0 r0_0) (View.ld x1 r0_0) (View.ld x2 r0_0) (View.ld x3 r0_1) (View.ld x3 r0_2) (View.ld x3 r0_3)
    (View.ld x4 r0_4) (View.ld x5 r0_5) (View.ld x6 r0_6)

/-- Output j of row p of a block, in the specification's words: the whole-buffer loads read the blocks themselves and
    the three partial loads of the weight matrix read its three bands. -/
theorem wide_apply (x0 x1 x2 : Vec Ideal S3200x128 .f32) (x3 : Vec Ideal S384x128 .bf16) (x4 : Vec Ideal S1x128 .f32)
    (x5 : Vec Ideal S128x384 .bf16) (x6 : Vec Ideal S1x384 .f32) (p : Fin 3200) (j : Fin 384) :
    wide x0 x1 x2 x3 x4 x5 x6 (ix2 p j)
      = Spec.outRow (fun k => x0 (ix2 p k)) (fun k => x1 (ix2 p k)) (fun k => x2 (ix2 p k)) (fun a b => x3 (ix2 a b))
          (fun k => x4 (ix2 ⟨0, Nat.one_pos⟩ k)) (fun a b => x5 (ix2 a b)) (fun j => x6 (ix2 ⟨0, Nat.one_pos⟩ j)) j := by
  unfold wide
  simp only [View.ld_unit_zero (S := S3200x128) hz, View.ld_unit_zero (S := S1x128) hz, View.ld_unit_zero (S := S128x384) hz,
    View.ld_unit_zero (S := S1x384) hz]
  rw [pay4_apply]
  simp only [View.ld]
  simp only [idx_band0, idx_band1, idx_band2]
  rfl

/-- The first output array's block is the band of the outputs at column offset 0. -/
theorem out0_7_apply (x0 x1 x2 : Vec Ideal S3200x128 .f32) (x3 : Vec Ideal S384x128 .bf16) (x4 : Vec Ideal S1x128 .f32)
    (x5 : Vec Ideal S128x384 .bf16) (x6 : Vec Ideal S1x384 .f32) (p : Fin 3200) (q : Fin 128) :
    out0_7 (F := Ideal) x0 x1 x2 x3 x4 x5 x6 (ix2 p q)
      = Spec.outRow (fun k => x0 (ix2 p k)) (fun k => x1 (ix2 p k)) (fun k => x2 (ix2 p k)) (fun a b => x3 (ix2 a b))
          (fun k => x4 (ix2 ⟨0, Nat.one_pos⟩ k)) (fun a b => x5 (ix2 a b)) (fun j => x6 (ix2 ⟨0, Nat.one_pos⟩ j)) ⟨q.val, by omega⟩ := by
  unfold out0_7
  rw [View.canon_unit_zero hz]
  show extractStridedSlice S3200x128 ![0, 0] (wide x0 x1 x2 x3 x4 x5 x6) slices_S3200x384_o0_0_S3200x128 (ix2 p q) = _
  have e := extractStridedSlice_apply ![0, 0] (wide x0 x1 x2 x3 x4 x5 x6) slices_S3200x384_o0_0_S3200x128 (ix2 p q)
    (ix2 p ⟨q.val, by omega⟩) (fun a => by
      match a with
      | ⟨0, _⟩ => show p.val = 0 + p.val; omega
      | ⟨1, _⟩ => show q.val = 0 + q.val; omega)
  exact e.trans (wide_apply ..)

/-- The second output array's block is the band at column offset 128. -/
theorem out0_8_apply (x0 x1 x2 : Vec Ideal S3200x128 .f32) (x3 : Vec Ideal S384x128 .bf16) (x4 : Vec Ideal S1x128 .f32)
    (x5 : Vec Ideal S128x384 .bf16) (x6 : Vec Ideal S1x384 .f32) (p : Fin 3200) (q : Fin 128) :
    out0_8 (F := Ideal) x0 x1 x2 x3 x4 x5 x6 (ix2 p q)
      = Spec.outRow (fun k => x0 (ix2 p k)) (fun k => x1 (ix2 p k)) (fun k => x2 (ix2 p k)) (fun a b => x3 (ix2 a b))
          (fun k => x4 (ix2 ⟨0, Nat.one_pos⟩ k)) (fun a b => x5 (ix2 a b)) (fun j => x6 (ix2 ⟨0, Nat.one_pos⟩ j)) ⟨128 + q.val, by omega⟩ := by
  unfold out0_8
  rw [View.canon_unit_zero hz]
  show extractStridedSlice S3200x128 ![0, 128] (wide x0 x1 x2 x3 x4 x5 x6) slices_S3200x384_o0_128_S3200x128 (ix2 p q) = _
  have e := extractStridedSlice_apply ![0, 128] (wide x0 x1 x2 x3 x4 x5 x6) slices_S3200x384_o0_128_S3200x128 (ix2 p q)
    (ix2 p ⟨128 + q.val, by omega⟩) (fun a => by
      match a with
      | ⟨0, _⟩ => show p.val = 0 + p.val; omega
      | ⟨1, _⟩ => rfl)
  exact e.trans (wide_apply ..)

/-- The third output array's block is the band at column offset 256. -/
theorem out0_9_apply (x0 x1 x2 : Vec Ideal S3200x128 .f32) (x3 : Vec Ideal S384x128 .bf16) (x4 : Vec Ideal S1x128 .f32)
    (x5 : Vec Ideal S128x384 .bf16) (x6 : Vec Ideal S1x384 .f32) (p : Fin 3200) (q : Fin 128) :
    out0_9 (F := Ideal) x0 x1 x2 x3 x4 x5 x6 (ix2 p q)
      = Spec.outRow (fun k => x0 (ix2 p k)) (fun k => x1 (ix2 p k)) (fun k => x2 (ix2 p k)) (fun a b => x3 (ix2 a b))
          (fun k => x4 (ix2 ⟨0, Nat.one_pos⟩ k)) (fun a b => x5 (ix2 a b)) (fun j => x6 (ix2 ⟨0, Nat.one_pos⟩ j)) ⟨256 + q.val, by omega⟩ := by
  unfold out0_9
  rw [View.canon_unit_zero hz]
  show extractStridedSlice S3200x128 ![0, 256] (wide x0 x1 x2 x3 x4 x5 x6) slices_S3200x384_o0_256_S3200x128 (ix2 p q) = _
  have e := extractStridedSlice_apply ![0, 256] (wide x0 x1 x2 x3 x4 x5 x6) slices_S3200x384_o0_256_S3200x128 (ix2 p q)
    (ix2 p ⟨256 + q.val, by omega⟩) (fun a => by
      match a with
      | ⟨0, _⟩ => show p.val = 0 + p.val; omega
      | ⟨1, _⟩ => rfl)
  exact e.trans (wide_apply ..)

/-! ## From blocks to the three arrays

Point t of the grid reads rows 3200·t … 3200·t + 3199 of the three row arrays, the whole of the four parameter arrays,
and writes rows 3200·t … 3200·t + 3199 of the three output arrays. -/

section Arrays

open Idealize.ShloMosaic.TcCoe
open Idealize.ShloMosaic.Pipeline (Dat)

-- the buffer contents when the region is entered, whatever they are
variable (V : (c : Dev nD) → (b : Ref sig .tc) → Buf (Elt Ideal) ((c : Thread nD τ).loc b))

/-- The grid has 125 points. -/
theorem lt_N (t : Fin cfg0.N) : t.val < 125 := lt_of_lt_of_eq t.isLt N_0

/-- The block indices of the ten windows at every point, decided over the grid: the three row inputs and the three
    outputs are at block (t, 0); the four parameter arrays at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- Row 3200·t + p of a 400000-row array exists. -/
theorem row_lt (t : Fin cfg0.N) (p : Fin 3200) : 3200 * t.val + p.val < 400000 := by
  have := lt_N t; omega

/-- The subject rows' block at point t: row p of the block is row 3200·t + p of the array. -/
theorem read0_0 (c : Dev nD) (t : Fin cfg0.N) (p : Fin 3200) (k : Fin 128) :
    (iblk0 V c 0 t : Vec Ideal S3200x128 .f32) (ix2 p k)
      = (V c main_v10 : S400000x128.Idx → EReal) (ix2 ⟨3200 * t.val + p.val, row_lt t p⟩ k) := by
  obtain ⟨⟨e0, e1⟩, -⟩ := idx_facts t
  show (V c main_v10 : S400000x128.Idx → EReal) (((cfg0.win 0).blk t).view.emb (ix2 p k)) = _
  refine congrArg (V c main_v10 : S400000x128.Idx → EReal) (funext fun a => Fin.ext ?_)
  match a with
  | ⟨0, _⟩ => show win0_0.index t (0 : Fin 2) * 3200 + 1 * p.val = 3200 * t.val + p.val; omega
  | ⟨1, _⟩ => show win0_0.index t (1 : Fin 2) * 128 + 1 * k.val = k.val; omega

/-- The predicate rows' block at point t: the same rows of its array. -/
theorem read0_1 (c : Dev nD) (t : Fin cfg0.N) (p : Fin 3200) (k : Fin 128) :
    (iblk0 V c 1 t : Vec Ideal S3200x128 .f32) (ix2 p k)
      = (V c main_arg1 : S400000x128.Idx → EReal) (ix2 ⟨3200 * t.val + p.val, row_lt t p⟩ k) := by
  obtain ⟨-, ⟨e0, e1⟩, -⟩ := idx_facts t
  show (V c main_arg1 : S400000x128.Idx → EReal) (((cfg0.win 1).blk t).view.emb (ix2 p k)) = _
  refine congrArg (V c main_arg1 : S400000x128.Idx → EReal) (funext fun a => Fin.ext ?_)
  match a with
  | ⟨0, _⟩ => show win0_1.index t (0 : Fin 2) * 3200 + 1 * p.val = 3200 * t.val + p.val; omega
  | ⟨1, _⟩ => show win0_1.index t (1 : Fin 2) * 128 + 1 * k.val = k.val; omega

/-- The object rows' block at point t: the same rows of its array. -/
theorem read0_2 (c : Dev nD) (t : Fin cfg0.N) (p : Fin 3200) (k : Fin 128) :
    (iblk0 V c 2 t : Vec Ideal S3200x128 .f32) (ix2 p k)
      = (V c main_v17 : S400000x128.Idx → EReal) (ix2 ⟨3200 * t.val + p.val, row_lt t p⟩ k) := by
  obtain ⟨-, -, ⟨e0, e1⟩, -⟩ := idx_facts t
  show (V c main_v17 : S400000x128.Idx → EReal) (((cfg0.win 2).blk t).view.emb (ix2 p k)) = _
  refine congrArg (V c main_v17 : S400000x128.Idx → EReal) (funext fun a => Fin.ext ?_)
  match a with
  | ⟨0, _⟩ => show win0_2.index t (0 : Fin 2) * 3200 + 1 * p.val = 3200 * t.val + p.val; omega
  | ⟨1, _⟩ => show win0_2.index t (1 : Fin 2) * 128 + 1 * k.val = k.val; omega

/-- The first layer's weights: the block at every point is the whole array. -/
theorem whole0_3 (c : Dev nD) (t : Fin cfg0.N) :
    (iblk0 V c 3 t : Vec Ideal S384x128 .bf16) = (V c main_v18 : S384x128.Idx → EReal) := by
  obtain ⟨-, -, -, ⟨e0, e1⟩, -⟩ := idx_facts t
  funext y
  show (V c main_v18 : S384x128.Idx → EReal) (((cfg0.win 3).blk t).view.emb y) = _
  refine congrArg (V c main_v18 : S384x128.Idx → EReal) (funext fun a => Fin.ext ?_)
  match a with
  | ⟨0, _⟩ => show win0_3.index t (0 : Fin 2) * 384 + 1 * (y 0).val = (y 0).val; omega
  | ⟨1, _⟩ => show win0_3.index t (1 : Fin 2) * 128 + 1 * (y 1).val = (y 1).val; omega

/-- The first layer's bias row: the whole array. -/
theorem whole0_4 (c : Dev nD) (t : Fin cfg0.N) :
    (iblk0 V c 4 t : Vec Ideal S1x128 .f32) = (V c main_v20 : S1x128.Idx → EReal) := by
  obtain ⟨-, -, -, -, ⟨e0, e1⟩, -⟩ := idx_facts t
  funext y
  show (V c main_v20 : S1x128.Idx → EReal) (((cfg0.win 4).blk t).view.emb y) = _
  refine congrArg (V c main_v20 : S1x128.Idx → EReal) (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The second layer's weights: the whole array. -/
theorem whole0_5 (c : Dev nD) (t : Fin cfg0.N) :
    (iblk0 V c 5 t : Vec Ideal S128x384 .bf16) = (V c main_v19 : S128x384.Idx → EReal) := by
  obtain ⟨-, -, -, -, -, ⟨e0, e1⟩, -⟩ := idx_facts t
  funext y
  show (V c main_v19 : S128x384.Idx → EReal) (((cfg0.win 5).blk t).view.emb y) = _
  refine congrArg (V c main_v19 : S128x384.Idx → EReal) (funext fun a => Fin.ext ?_)
  match a with
  | ⟨0, _⟩ => show win0_5.index t (0 : Fin 2) * 128 + 1 * (y 0).val = (y 0).val; omega
  | ⟨1, _⟩ => show win0_5.index t (1 : Fin 2) * 384 + 1 * (y 1).val = (y 1).val; omega

/-- The second layer's bias row: the whole array. -/
theorem whole0_6 (c : Dev nD) (t : Fin cfg0.N) :
    (iblk0 V c 6 t : Vec Ideal S1x384 .f32) = (V c main_v21 : S1x384.Idx → EReal) := by
  obtain ⟨-, -, -, -, -, -, ⟨e0, e1⟩, -⟩ := idx_facts t
  funext y
  show (V c main_v21 : S1x384.Idx → EReal) (((cfg0.win 6).blk t).view.emb y) = _
  refine congrArg (V c main_v21 : S1x384.Idx → EReal) (funext fun a => Fin.ext ?_)
  match a with
  | ⟨0, _⟩ => show win0_6.index t (0 : Fin 2) * 1 + 1 * (y 0).val = (y 0).val; omega
  | ⟨1, _⟩ => show win0_6.index t (1 : Fin 2) * 384 + 1 * (y 1).val = (y 1).val; omega

/-- One entry of one block of an output array. If the three row blocks are rows 3200·n … of the arrays S, P, O, the four
    parameter blocks are the parameter arrays, and the body's block is, entry by entry, output `col q` of the edge
    network on its row's three input rows, then entry j of the block is the edge network's output on row 3200·n + j₀ of
    the arrays, at the column the block's column j₁ stands for. -/
theorem block_rows (S P O : Spec.Mat 400000 128) (A : Spec.Mat 384 128) (b : Spec.Mat 1 128) (W : Spec.Mat 128 384) (b' : Spec.Mat 1 384)
    (x0 x1 x2 : Vec Ideal S3200x128 .f32) (x3 : Vec Ideal S384x128 .bf16) (x4 : Vec Ideal S1x128 .f32)
    (x5 : Vec Ideal S128x384 .bf16) (x6 : Vec Ideal S1x384 .f32) (n : Nat) (hn : n < 125)
    (h0 : ∀ (p : Fin 3200) (k : Fin 128), x0 (ix2 p k) = S (ix2 ⟨3200 * n + p.val, by omega⟩ k))
    (h1 : ∀ (p : Fin 3200) (k : Fin 128), x1 (ix2 p k) = P (ix2 ⟨3200 * n + p.val, by omega⟩ k))
    (h2 : ∀ (p : Fin 3200) (k : Fin 128), x2 (ix2 p k) = O (ix2 ⟨3200 * n + p.val, by omega⟩ k))
    (h3 : x3 = A) (h4 : x4 = b) (h5 : x5 = W) (h6 : x6 = b')
    (out : Vec Ideal S3200x128 .f32) (col : Fin 128 → Fin 384)
    (hout : ∀ (p : Fin 3200) (q : Fin 128), out (ix2 p q)
      = Spec.outRow (fun k => x0 (ix2 p k)) (fun k => x1 (ix2 p k)) (fun k => x2 (ix2 p k)) (fun a b => x3 (ix2 a b))
          (fun k => x4 (ix2 ⟨0, Nat.one_pos⟩ k)) (fun a b => x5 (ix2 a b)) (fun j => x6 (ix2 ⟨0, Nat.one_pos⟩ j)) (col q))
    (j : S3200x128.Idx) (i : S400000x128.Idx) (hi0 : (i 0).val = 3200 * n + (j 0).val) (hi1 : (i 1).val = (j 1).val) :
    out j = Spec.outRow (Spec.row S (i 0)) (Spec.row P (i 0)) (Spec.row O (i 0)) (Spec.mat A) (Spec.row0 b) (Spec.mat W) (Spec.row0 b')
      (col ⟨(i 1).val, idx2_lt1 i⟩) := by
  subst h3 h4 h5 h6
  obtain ⟨p, q, rfl⟩ : ∃ (p : Fin 3200) (q : Fin 128), j = ix2 p q := ⟨j 0, j 1, eq_ix2 j⟩
  have hp : (i 0).val = 3200 * n + p.val := hi0
  have hq : (i 1).val = q.val := hi1
  have er : ∀ (X : Spec.Mat 400000 128) (x : Vec Ideal S3200x128 .f32),
      (∀ (p : Fin 3200) (k : Fin 128), x (ix2 p k) = X (ix2 ⟨3200 * n + p.val, by omega⟩ k)) →
      (fun k => x (ix2 p k)) = Spec.row X (i 0) := fun X x h => funext fun k => (h p k).trans
    (congrArg X (funext fun a => Fin.ext (by
      match a with
      | ⟨0, _⟩ => exact hp.symm
      | ⟨1, _⟩ => rfl)))
  rw [hout, er S x0 h0, er P x1 h1, er O x2 h2, show q = ⟨(i 1).val, idx2_lt1 i⟩ from Fin.ext hq.symm]
  rfl

/-- WHAT POINT t WRITES BACK to the first output array is block t of the band at column offset 0 of the edge network's outputs. -/
theorem flushed0_7 (c : Dev nD) (t : Fin cfg0.N) :
    (dat0 (F := Ideal) V c).flushed 7 t = ((cfg0.win 7).blk t).view.read (Elt Ideal) (fun i : S400000x128.Idx =>
      Spec.outRow (Spec.row (V c main_v10 : S400000x128.Idx → EReal) (i 0)) (Spec.row (V c main_arg1 : S400000x128.Idx → EReal) (i 0))
        (Spec.row (V c main_v17 : S400000x128.Idx → EReal) (i 0)) (Spec.mat (V c main_v18 : S384x128.Idx → EReal))
        (Spec.row0 (V c main_v20 : S1x128.Idx → EReal)) (Spec.mat (V c main_v19 : S128x384.Idx → EReal))
        (Spec.row0 (V c main_v21 : S1x384.Idx → EReal)) ⟨(i 1 : Fin 128).val, by have h1 : (i 1 : Fin 128).val < 128 := (i 1 : Fin 128).isLt; omega⟩) := by
  show (cfg0.win 7).cut (grid0.coords t) ((dat0 V c).after 7 t) = _
  rw [after0_7]
  obtain ⟨-, -, -, -, -, -, -, ⟨e0, e1⟩, -⟩ := idx_facts t
  funext y
  exact block_rows (V c main_v10) (V c main_arg1) (V c main_v17) (V c main_v18) (V c main_v20) (V c main_v19) (V c main_v21)
    (iblk0 V c 0 t) (iblk0 V c 1 t) (iblk0 V c 2 t) (iblk0 V c 3 t) (iblk0 V c 4 t) (iblk0 V c 5 t) (iblk0 V c 6 t)
    t.val (lt_N t) (read0_0 V c t) (read0_1 V c t) (read0_2 V c t) (whole0_3 V c t) (whole0_4 V c t) (whole0_5 V c t) (whole0_6 V c t)
    (out0_7 (iblk0 V c 0 t) (iblk0 V c 1 t) (iblk0 V c 2 t) (iblk0 V c 3 t) (iblk0 V c 4 t) (iblk0 V c 5 t) (iblk0 V c 6 t))
    (fun q => ⟨q.val, by omega⟩)
    (out0_7_apply (iblk0 V c 0 t) (iblk0 V c 1 t) (iblk0 V c 2 t) (iblk0 V c 3 t) (iblk0 V c 4 t) (iblk0 V c 5 t) (iblk0 V c 6 t))
    ((cfg0.win 7).xinj (grid0.coords t) y) (((cfg0.win 7).blk t).view.emb y)
    (by show win0_7.index t (0 : Fin 2) * 3200 + 1 * (y 0).val = 3200 * t.val + (y 0).val; omega)
    (by show win0_7.index t (1 : Fin 2) * 128 + 1 * (y 1).val = (y 1).val; omega)

/-- WHAT POINT t WRITES BACK to the second output array is block t of the band at column offset 128. -/
theorem flushed0_8 (c : Dev nD) (t : Fin cfg0.N) :
    (dat0 (F := Ideal) V c).flushed 8 t = ((cfg0.win 8).blk t).view.read (Elt Ideal) (fun i : S400000x128.Idx =>
      Spec.outRow (Spec.row (V c main_v10 : S400000x128.Idx → EReal) (i 0)) (Spec.row (V c main_arg1 : S400000x128.Idx → EReal) (i 0))
        (Spec.row (V c main_v17 : S400000x128.Idx → EReal) (i 0)) (Spec.mat (V c main_v18 : S384x128.Idx → EReal))
        (Spec.row0 (V c main_v20 : S1x128.Idx → EReal)) (Spec.mat (V c main_v19 : S128x384.Idx → EReal))
        (Spec.row0 (V c main_v21 : S1x384.Idx → EReal)) ⟨128 + (i 1 : Fin 128).val, by have h1 : (i 1 : Fin 128).val < 128 := (i 1 : Fin 128).isLt; omega⟩) := by
  show (cfg0.win 8).cut (grid0.coords t) ((dat0 V c).after 8 t) = _
  rw [after0_8]
  obtain ⟨-, -, -, -, -, -, -, -, ⟨e0, e1⟩, -⟩ := idx_facts t
  funext y
  exact block_rows (V c main_v10) (V c main_arg1) (V c main_v17) (V c main_v18) (V c main_v20) (V c main_v19) (V c main_v21)
    (iblk0 V c 0 t) (iblk0 V c 1 t) (iblk0 V c 2 t) (iblk0 V c 3 t) (iblk0 V c 4 t) (iblk0 V c 5 t) (iblk0 V c 6 t)
    t.val (lt_N t) (read0_0 V c t) (read0_1 V c t) (read0_2 V c t) (whole0_3 V c t) (whole0_4 V c t) (whole0_5 V c t) (whole0_6 V c t)
    (out0_8 (iblk0 V c 0 t) (iblk0 V c 1 t) (iblk0 V c 2 t) (iblk0 V c 3 t) (iblk0 V c 4 t) (iblk0 V c 5 t) (iblk0 V c 6 t))
    (fun q => ⟨128 + q.val, by omega⟩)
    (out0_8_apply (iblk0 V c 0 t) (iblk0 V c 1 t) (iblk0 V c 2 t) (iblk0 V c 3 t) (iblk0 V c 4 t) (iblk0 V c 5 t) (iblk0 V c 6 t))
    ((cfg0.win 8).xinj (grid0.coords t) y) (((cfg0.win 8).blk t).view.emb y)
    (by show win0_8.index t (0 : Fin 2) * 3200 + 1 * (y 0).val = 3200 * t.val + (y 0).val; omega)
    (by show win0_8.index t (1 : Fin 2) * 128 + 1 * (y 1).val = (y 1).val; omega)

/-- WHAT POINT t WRITES BACK to the third output array is block t of the band at column offset 256. -/
theorem flushed0_9 (c : Dev nD) (t : Fin cfg0.N) :
    (dat0 (F := Ideal) V c).flushed 9 t = ((cfg0.win 9).blk t).view.read (Elt Ideal) (fun i : S400000x128.Idx =>
      Spec.outRow (Spec.row (V c main_v10 : S400000x128.Idx → EReal) (i 0)) (Spec.row (V c main_arg1 : S400000x128.Idx → EReal) (i 0))
        (Spec.row (V c main_v17 : S400000x128.Idx → EReal) (i 0)) (Spec.mat (V c main_v18 : S384x128.Idx → EReal))
        (Spec.row0 (V c main_v20 : S1x128.Idx → EReal)) (Spec.mat (V c main_v19 : S128x384.Idx → EReal))
        (Spec.row0 (V c main_v21 : S1x384.Idx → EReal)) ⟨256 + (i 1 : Fin 128).val, by have h1 : (i 1 : Fin 128).val < 128 := (i 1 : Fin 128).isLt; omega⟩) := by
  show (cfg0.win 9).cut (grid0.coords t) ((dat0 V c).after 9 t) = _
  rw [after0_9]
  obtain ⟨-, -, -, -, -, -, -, -, -, e0, e1⟩ := idx_facts t
  funext y
  exact block_rows (V c main_v10) (V c main_arg1) (V c main_v17) (V c main_v18) (V c main_v20) (V c main_v19) (V c main_v21)
    (iblk0 V c 0 t) (iblk0 V c 1 t) (iblk0 V c 2 t) (iblk0 V c 3 t) (iblk0 V c 4 t) (iblk0 V c 5 t) (iblk0 V c 6 t)
    t.val (lt_N t) (read0_0 V c t) (read0_1 V c t) (read0_2 V c t) (whole0_3 V c t) (whole0_4 V c t) (whole0_5 V c t) (whole0_6 V c t)
    (out0_9 (iblk0 V c 0 t) (iblk0 V c 1 t) (iblk0 V c 2 t) (iblk0 V c 3 t) (iblk0 V c 4 t) (iblk0 V c 5 t) (iblk0 V c 6 t))
    (fun q => ⟨256 + q.val, by omega⟩)
    (out0_9_apply (iblk0 V c 0 t) (iblk0 V c 1 t) (iblk0 V c 2 t) (iblk0 V c 3 t) (iblk0 V c 4 t) (iblk0 V c 5 t) (iblk0 V c 6 t))
    ((cfg0.win 9).xinj (grid0.coords t) y) (((cfg0.win 9).blk t).view.emb y)
    (by show win0_9.index t (0 : Fin 2) * 3200 + 1 * (y 0).val = 3200 * t.val + (y 0).val; omega)
    (by show win0_9.index t (1 : Fin 2) * 128 + 1 * (y 1).val = (y 1).val; omega)

/-- A place of the array is in point t's block iff each coordinate is in the block's range on its axis. -/
theorem mem_blk7 (t : Fin cfg0.N) (i : S400000x128.Idx) :
    i ∈ ((cfg0.win 7).blk t).view.set ↔ ∀ a : Fin 2, win0_7.index t a * S3200x128.size a ≤ (i a).val
      ∧ (i a).val < win0_7.index t a * S3200x128.size a + S3200x128.size a := by
  show i ∈ ((View.whole main_v22_0).slice (win0_7.rect t)).set ↔ _
  rw [View.set_slice_whole, Rect.mem_set_unit]
  exact Iff.rfl

/-- Row r of the array is in the block of point r / 3200, and every point writes its block back. -/
theorem cover7 (i : S400000x128.Idx) :
    ∃ t : Fin cfg0.N, (cfg0.win 7).flush t = true ∧ i ∈ ((cfg0.win 7).blk t).view.set := by
  have hi0 : (i 0).val < 400000 := (i 0).isLt
  have hi1 : (i 1).val < 128 := (i 1).isLt
  obtain ⟨t, ht⟩ : ∃ t : Fin cfg0.N, t.val = (i 0).val / 3200 :=
    ⟨⟨(i 0).val / 3200, lt_of_lt_of_eq (by omega : (i 0).val / 3200 < 125) N_0.symm⟩, rfl⟩
  obtain ⟨-, -, -, -, -, -, -, ⟨e0, e1⟩, -⟩ := idx_facts t
  refine ⟨t, flush0_7 t, ?_⟩
  rw [mem_blk7]
  intro a
  match a with
  | ⟨0, _⟩ =>
    show win0_7.index t (0 : Fin 2) * 3200 ≤ (i 0).val ∧ (i 0).val < win0_7.index t (0 : Fin 2) * 3200 + 3200
    omega
  | ⟨1, _⟩ =>
    show win0_7.index t (1 : Fin 2) * 128 ≤ (i 1).val ∧ (i 1).val < win0_7.index t (1 : Fin 2) * 128 + 128
    omega

/-- A place of the array is in point t's block iff each coordinate is in the block's range on its axis. -/
theorem mem_blk8 (t : Fin cfg0.N) (i : S400000x128.Idx) :
    i ∈ ((cfg0.win 8).blk t).view.set ↔ ∀ a : Fin 2, win0_8.index t a * S3200x128.size a ≤ (i a).val
      ∧ (i a).val < win0_8.index t a * S3200x128.size a + S3200x128.size a := by
  show i ∈ ((View.whole main_v22_1).slice (win0_8.rect t)).set ↔ _
  rw [View.set_slice_whole, Rect.mem_set_unit]
  exact Iff.rfl

/-- Row r of the array is in the block of point r / 3200, and every point writes its block back. -/
theorem cover8 (i : S400000x128.Idx) :
    ∃ t : Fin cfg0.N, (cfg0.win 8).flush t = true ∧ i ∈ ((cfg0.win 8).blk t).view.set := by
  have hi0 : (i 0).val < 400000 := (i 0).isLt
  have hi1 : (i 1).val < 128 := (i 1).isLt
  obtain ⟨t, ht⟩ : ∃ t : Fin cfg0.N, t.val = (i 0).val / 3200 :=
    ⟨⟨(i 0).val / 3200, lt_of_lt_of_eq (by omega : (i 0).val / 3200 < 125) N_0.symm⟩, rfl⟩
  obtain ⟨-, -, -, -, -, -, -, -, ⟨e0, e1⟩, -⟩ := idx_facts t
  refine ⟨t, flush0_8 t, ?_⟩
  rw [mem_blk8]
  intro a
  match a with
  | ⟨0, _⟩ =>
    show win0_8.index t (0 : Fin 2) * 3200 ≤ (i 0).val ∧ (i 0).val < win0_8.index t (0 : Fin 2) * 3200 + 3200
    omega
  | ⟨1, _⟩ =>
    show win0_8.index t (1 : Fin 2) * 128 ≤ (i 1).val ∧ (i 1).val < win0_8.index t (1 : Fin 2) * 128 + 128
    omega

/-- A place of the array is in point t's block iff each coordinate is in the block's range on its axis. -/
theorem mem_blk9 (t : Fin cfg0.N) (i : S400000x128.Idx) :
    i ∈ ((cfg0.win 9).blk t).view.set ↔ ∀ a : Fin 2, win0_9.index t a * S3200x128.size a ≤ (i a).val
      ∧ (i a).val < win0_9.index t a * S3200x128.size a + S3200x128.size a := by
  show i ∈ ((View.whole main_v22_2).slice (win0_9.rect t)).set ↔ _
  rw [View.set_slice_whole, Rect.mem_set_unit]
  exact Iff.rfl

/-- Row r of the array is in the block of point r / 3200, and every point writes its block back. -/
theorem cover9 (i : S400000x128.Idx) :
    ∃ t : Fin cfg0.N, (cfg0.win 9).flush t = true ∧ i ∈ ((cfg0.win 9).blk t).view.set := by
  have hi0 : (i 0).val < 400000 := (i 0).isLt
  have hi1 : (i 1).val < 128 := (i 1).isLt
  obtain ⟨t, ht⟩ : ∃ t : Fin cfg0.N, t.val = (i 0).val / 3200 :=
    ⟨⟨(i 0).val / 3200, lt_of_lt_of_eq (by omega : (i 0).val / 3200 < 125) N_0.symm⟩, rfl⟩
  obtain ⟨-, -, -, -, -, -, -, -, -, e0, e1⟩ := idx_facts t
  refine ⟨t, flush0_9 t, ?_⟩
  rw [mem_blk9]
  intro a
  match a with
  | ⟨0, _⟩ =>
    show win0_9.index t (0 : Fin 2) * 3200 ≤ (i 0).val ∧ (i 0).val < win0_9.index t (0 : Fin 2) * 3200 + 3200
    omega
  | ⟨1, _⟩ =>
    show win0_9.index t (1 : Fin 2) * 128 ≤ (i 1).val ∧ (i 1).val < win0_9.index t (1 : Fin 2) * 128 + 128
    omega

/-- THE FIRST OUTPUT ARRAY after all 125 points: at (r, q), output q of the edge network on row r of the three row arrays. -/
theorem final0_7 (c : Dev nD) :
    (dat0 (F := Ideal) V c).arrAt 7 cfg0.N = fun i : S400000x128.Idx =>
      Spec.outRow (Spec.row (V c main_v10 : S400000x128.Idx → EReal) (i 0)) (Spec.row (V c main_arg1 : S400000x128.Idx → EReal) (i 0))
        (Spec.row (V c main_v17 : S400000x128.Idx → EReal) (i 0)) (Spec.mat (V c main_v18 : S384x128.Idx → EReal))
        (Spec.row0 (V c main_v20 : S1x128.Idx → EReal)) (Spec.mat (V c main_v19 : S128x384.Idx → EReal))
        (Spec.row0 (V c main_v21 : S1x384.Idx → EReal)) ⟨(i 1 : Fin 128).val, by have h1 : (i 1 : Fin 128).val < 128 := (i 1 : Fin 128).isLt; omega⟩ :=
  (dat0 (F := Ideal) V c).arrAt_eq_of_cover 7 _ (fun t _ => flushed0_7 V c t) cover7

/-- THE SECOND OUTPUT ARRAY after all 125 points: at (r, q), output 128 + q of the edge network on row r. -/
theorem final0_8 (c : Dev nD) :
    (dat0 (F := Ideal) V c).arrAt 8 cfg0.N = fun i : S400000x128.Idx =>
      Spec.outRow (Spec.row (V c main_v10 : S400000x128.Idx → EReal) (i 0)) (Spec.row (V c main_arg1 : S400000x128.Idx → EReal) (i 0))
        (Spec.row (V c main_v17 : S400000x128.Idx → EReal) (i 0)) (Spec.mat (V c main_v18 : S384x128.Idx → EReal))
        (Spec.row0 (V c main_v20 : S1x128.Idx → EReal)) (Spec.mat (V c main_v19 : S128x384.Idx → EReal))
        (Spec.row0 (V c main_v21 : S1x384.Idx → EReal)) ⟨128 + (i 1 : Fin 128).val, by have h1 : (i 1 : Fin 128).val < 128 := (i 1 : Fin 128).isLt; omega⟩ :=
  (dat0 (F := Ideal) V c).arrAt_eq_of_cover 8 _ (fun t _ => flushed0_8 V c t) cover8

/-- THE THIRD OUTPUT ARRAY after all 125 points: at (r, q), output 256 + q of the edge network on row r. -/
theorem final0_9 (c : Dev nD) :
    (dat0 (F := Ideal) V c).arrAt 9 cfg0.N = fun i : S400000x128.Idx =>
      Spec.outRow (Spec.row (V c main_v10 : S400000x128.Idx → EReal) (i 0)) (Spec.row (V c main_arg1 : S400000x128.Idx → EReal) (i 0))
        (Spec.row (V c main_v17 : S400000x128.Idx → EReal) (i 0)) (Spec.mat (V c main_v18 : S384x128.Idx → EReal))
        (Spec.row0 (V c main_v20 : S1x128.Idx → EReal)) (Spec.mat (V c main_v19 : S128x384.Idx → EReal))
        (Spec.row0 (V c main_v21 : S1x384.Idx → EReal)) ⟨256 + (i 1 : Fin 128).val, by have h1 : (i 1 : Fin 128).val < 128 := (i 1 : Fin 128).isLt; omega⟩ :=
  (dat0 (F := Ideal) V c).arrAt_eq_of_cover 9 _ (fun t _ => flushed0_9 V c t) cover9

end Arrays

end Cert.EdgeRegion

end
-- ==== Proof.ObjRegion.lean ====
/-
  The object network, region by region of the grid.

  The second launch walks 25 blocks of 4000 object rows. On one block it divides each pooled row, entry by entry, by
  that row's incidence count clipped into [1, 1000] (the count is a column, spread over the 128 entries of the row),
  then applies two rectified affine layers 128 → 128 → 128: a product with a 128×128 weight matrix, a bias row added
  to every row, a maximum with zero. Read at row p and column q of the block, the result is Spec.objRow of row p of
  the pooled block, of its count and of the four parameters: the first part below.

  The blocks are disjoint bands of rows: block t holds rows 4000 t … 4000 t + 3999 of the pooled array and of the
  counts, and the whole of each parameter; it is written back to the same band of the output. Row r lies in block
  r / 4000, so the 25 bands cover the 100000 rows, and the output array ends as Spec.objRow of its own row of the
  pooled array and count at every index: the second part.
-/
import proofs.«176940_j88923002896582_2_alg».proof.Proof.Gen.KernelIdeal.Frame
import proofs.«176940_j88923002896582_2_alg».proof.Proof.Spec
import proofs.«176940_j88923002896582_2_alg».proof.Proof.LibPlainMatmul
import proofs.«176940_j88923002896582_2_alg».proof.Proof.LibKeepdims
import proofs.«176940_j88923002896582_2_alg».proof.Proof.LibRowBroadcast

noncomputable section

namespace Cert.ObjRegion

open Cert.KernelIdeal Cert.KernelIdeal.Gen Idealize.ShloMosaic Idealize.ShloMosaic.ValueIdx Idealize.ShloMosaic.TcCoe
open Idealize.SL.Sem
open Idealize.ShloMosaic.Pipeline (Dat)
open scoped BigOperators

/-! ## One block at an index -/

/-- The product's dimension numbers are those of an ordinary [4000, 128] × [128, 128] product. -/
theorem dot_plain :
    (dot_S4000x128_S128x128_S4000x128_1_0_0_1_n_n : DotDims ⟨2, ![4000, 128]⟩ ⟨2, ![128, 128]⟩ ⟨2, ![4000, 128]⟩)
      = DotDims.plain 4000 128 128 := rfl

/-- A rectified affine layer on a block of 4000 rows: X · W, the bias row added to every row, maximum with zero. -/
def layer (X : FVec Ideal S4000x128 .f32) (W : Vec Ideal S128x128 .bf16) (b : Vec Ideal S1x128 .f32) :
    FVec Ideal S4000x128 .f32 :=
  maximumf
    (addf
      (FloatOps.matmul dot_S4000x128_S128x128_S4000x128_1_0_0_1_n_n none (truncf .bf16 X bitsLt_bf16_f32 : FVec Ideal S4000x128 .bf16)
        (shapeCast S128x128 W shapeCasts_S128x128_S128x128 : FVec Ideal S128x128 .bf16) (constant (F := Ideal) S4000x128 .f32 0x00000000#32))
      (broadcastTo S4000x128 (shapeCast S1x128 b shapeCasts_S1x128_S1x128 : FVec Ideal S1x128 .f32) broadcasts_S1x128_S4000x128))
    (broadcast S4000x128 (Scalar.ofBits (F := Ideal) .f32 0x00000000#32))

/-- The pooled block over its clipped counts: each row divided by its count clipped into [1, 1000]. -/
def scaled (x : Vec Ideal S4000x128 .f32) (c : Vec Ideal S4000x1 .f32) : FVec Ideal S4000x128 .f32 :=
  divf (shapeCast S4000x128 x shapeCasts_S4000x128_S4000x128 : FVec Ideal S4000x128 .f32)
    (broadcastTo S4000x128
      (minimumf (broadcast S4000x1 (Scalar.ofBits (F := Ideal) .f32 0x447A0000#32))
        (maximumf (broadcast S4000x1 (Scalar.ofBits (F := Ideal) .f32 0x3F800000#32))
          (shapeCast S4000x1 c shapeCasts_S4000x1_S4000x1 : FVec Ideal S4000x1 .f32)))
      broadcasts_S4000x1_S4000x128)

/-- The block's stored value is two layers over the scaled pooled block. -/
theorem pay_eq (c : Vec Ideal S4000x1 .f32) (x : Vec Ideal S4000x128 .f32) (w2a : Vec Ideal S128x128 .bf16)
    (b2a : Vec Ideal S1x128 .f32) (w2b : Vec Ideal S128x128 .bf16) (b2b : Vec Ideal S1x128 .f32) :
    k1_pay1 (F := Ideal) c x w2a b2a w2b b2b = layer (layer (scaled x c) w2a b2a) w2b b2b := rfl

/-- The scaled block at (p, i): the pooled entry over the clipped count of row p. -/
theorem scaled_apply (x : Vec Ideal S4000x128 .f32) (c : Vec Ideal S4000x1 .f32) (p : Fin 4000) (i : Fin 128) :
    scaled x c (ix2 p i) = Ideal.div (x (ix2 p i)) (Spec.clipCount (c (ix2 p ⟨0, Nat.one_pos⟩))) := by
  unfold scaled
  rw [divf_apply, shapeCast_self, Cert.LibKeepdims.broadcastTo_a1_ab_apply _ _ p i ⟨0, Nat.one_pos⟩, minimumf_apply,
    maximumf_apply, broadcast_apply, broadcast_apply, shapeCast_self]
  rfl

/-- A layer at (p, j): the row's product with column j of the weights, plus the bias, rectified. -/
theorem layer_apply (X : FVec Ideal S4000x128 .f32) (W : Vec Ideal S128x128 .bf16) (b : Vec Ideal S1x128 .f32)
    (p : Fin 4000) (j : Fin 128) :
    layer X W b (ix2 p j) = max ((∑ i : Fin 128, X (ix2 p i) * W (ix2 i j)) + b (ix2 ⟨0, Nat.one_pos⟩ j)) Spec.zero := by
  unfold layer
  rw [maximumf_apply, addf_apply, broadcast_apply, Cert.LibRowBroadcast.broadcastTo_1b_ab_apply _ _ p j ⟨0, Nat.one_pos⟩,
    shapeCast_self, shapeCast_self, dot_plain]
  rw [matmul_plain_zero_apply 4000 128 128]
  rfl

/-- The block's stored value at (p, q) is the object row of row p. -/
theorem pay_apply (c : Vec Ideal S4000x1 .f32) (x : Vec Ideal S4000x128 .f32) (w2a : Vec Ideal S128x128 .bf16)
    (b2a : Vec Ideal S1x128 .f32) (w2b : Vec Ideal S128x128 .bf16) (b2b : Vec Ideal S1x128 .f32) (p : Fin 4000) (q : Fin 128) :
    k1_pay1 (F := Ideal) c x w2a b2a w2b b2b (ix2 p q)
      = Spec.objRow (fun k => x (ix2 p k)) (c (ix2 p ⟨0, Nat.one_pos⟩)) (fun a b => w2a (ix2 a b))
          (fun k => b2a (ix2 ⟨0, Nat.one_pos⟩ k)) (fun a b => w2b (ix2 a b)) (fun k => b2b (ix2 ⟨0, Nat.one_pos⟩ k)) q := by
  rw [pay_eq, layer_apply]
  unfold Spec.objRow Spec.objHid
  simp only [layer_apply, scaled_apply]

theorem hz : (![0, 0] : Fin 2 → Nat) = fun _ => 0 := funext fun a => by fin_cases a <;> rfl

/-- What the body leaves in the output block, at (p, q). -/
theorem out_apply (x0 : Vec Ideal S4000x128 .f32) (x1 : Vec Ideal S4000x1 .f32) (x2 : Vec Ideal S128x128 .bf16)
    (x3 : Vec Ideal S1x128 .f32) (x4 : Vec Ideal S128x128 .bf16) (x5 : Vec Ideal S1x128 .f32) (p : Fin 4000) (q : Fin 128) :
    out1_6 (F := Ideal) x0 x1 x2 x3 x4 x5 (ix2 p q)
      = Spec.objRow (fun k => x0 (ix2 p k)) (x1 (ix2 p ⟨0, Nat.one_pos⟩)) (fun a b => x2 (ix2 a b))
          (fun k => x3 (ix2 ⟨0, Nat.one_pos⟩ k)) (fun a b => x4 (ix2 a b)) (fun k => x5 (ix2 ⟨0, Nat.one_pos⟩ k)) q := by
  unfold out1_6
  rw [View.canon_unit_zero hz]
  simp only [View.ld_unit_zero (S := S4000x128) hz, View.ld_unit_zero (S := S4000x1) hz,
    View.ld_unit_zero (S := S128x128) hz, View.ld_unit_zero (S := S1x128) hz]
  exact pay_apply x1 x0 x2 x3 x4 x5 p q

/-- The same at any index of the block, by its two coordinates. -/
theorem out_at (x0 : Vec Ideal S4000x128 .f32) (x1 : Vec Ideal S4000x1 .f32) (x2 : Vec Ideal S128x128 .bf16)
    (x3 : Vec Ideal S1x128 .f32) (x4 : Vec Ideal S128x128 .bf16) (x5 : Vec Ideal S1x128 .f32) (j : S4000x128.Idx) :
    out1_6 (F := Ideal) x0 x1 x2 x3 x4 x5 j
      = Spec.objRow (fun k => x0 (ix2 (j 0) k)) (x1 (ix2 (j 0) ⟨0, Nat.one_pos⟩)) (fun a b => x2 (ix2 a b))
          (fun k => x3 (ix2 ⟨0, Nat.one_pos⟩ k)) (fun a b => x4 (ix2 a b)) (fun k => x5 (ix2 ⟨0, Nat.one_pos⟩ k)) (j 1) := by
  obtain ⟨p, q, rfl⟩ : ∃ (p : Fin 4000) (q : Fin 128), j = ix2 p q := ⟨j 0, j 1, eq_ix2 j⟩
  exact out_apply x0 x1 x2 x3 x4 x5 p q

/-- An object row depends only on its seven arguments. -/
theorem objRow_congr {x x' : Fin 128 → EReal} {c c' : EReal} {w2a w2a' : Fin 128 → Fin 128 → EReal}
    {b2a b2a' : Fin 128 → EReal} {w2b w2b' : Fin 128 → Fin 128 → EReal} {b2b b2b' : Fin 128 → EReal} {q q' : Fin 128}
    (hx : x = x') (hc : c = c') (hw2a : w2a = w2a') (hb2a : b2a = b2a') (hw2b : w2b = w2b') (hb2b : b2b = b2b')
    (hq : q = q') : Spec.objRow x c w2a b2a w2b b2b q = Spec.objRow x' c' w2a' b2a' w2b' b2b' q' := by
  subst hx hc hw2a hb2a hw2b hb2b hq; rfl

/-! ## From blocks to the array -/

section Array

variable (V : (c : Dev nD) → (b : Ref sig .tc) → Buf (Elt Ideal) ((c : Thread nD τ).loc b))

/-- The object network's output over all 100000 rows, from the arrays the launch finds: at (r, q), the object row of
    row r of the pooled array and of count r, at column q. -/
abbrev G (c : Dev nD) : S100000x128.Idx → EReal := fun i =>
  Spec.objRow (Spec.row (V c main_v32 : S100000x128.Idx → EReal) (i 0))
    ((V c main_v42 : S100000x1.Idx → EReal) (ix2 (i 0) ⟨0, Nat.one_pos⟩))
    (Spec.mat (V c main_v43 : S128x128.Idx → EReal)) (Spec.row0 (V c main_v45 : S1x128.Idx → EReal))
    (Spec.mat (V c main_v44 : S128x128.Idx → EReal)) (Spec.row0 (V c main_v46 : S1x128.Idx → EReal)) (i 1)

/-- The index maps over the 25 points: the pooled rows, the counts and the output move by one block of rows per point;
    the four parameters stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Block t of the pooled array is its rows 4000 t … 4000 t + 3999. -/
theorem blk0_apply (c : Dev nD) (t : Fin cfg1.N) (y : S4000x128.Idx) (i : S100000x128.Idx)
    (h0 : (i 0).val = 4000 * t.val + (y 0).val) (h1 : (i 1).val = (y 1).val) :
    (iblk1 V c 0 t : Vec Ideal S4000x128 .f32) y = (V c main_v32 : S100000x128.Idx → EReal) i := by
  obtain ⟨e0, e1, -⟩ := idx_facts t
  unfold iblk1
  rw [View.read_apply]
  show (V c main_v32 : S100000x128.Idx → EReal) (((cfg1.win 0).blk t).view.emb y) = (V c main_v32 : S100000x128.Idx → EReal) i
  refine congrArg (V c main_v32 : S100000x128.Idx → EReal) ?_
  funext a; apply Fin.ext
  match a with
  | ⟨0, _⟩ => show win1_0.index t (0 : Fin 2) * 4000 + 1 * (y 0).val = (i 0).val; omega
  | ⟨1, _⟩ => show win1_0.index t (1 : Fin 2) * 128 + 1 * (y 1).val = (i 1).val; omega

/-- Block t of the counts is their rows 4000 t … 4000 t + 3999. -/
theorem blk1_apply (c : Dev nD) (t : Fin cfg1.N) (y : S4000x1.Idx) (i : S100000x1.Idx)
    (h0 : (i 0).val = 4000 * t.val + (y 0).val) (h1 : (i 1).val = (y 1).val) :
    (iblk1 V c 1 t : Vec Ideal S4000x1 .f32) y = (V c main_v42 : S100000x1.Idx → EReal) i := by
  obtain ⟨-, -, e0, e1, -⟩ := idx_facts t
  unfold iblk1
  rw [View.read_apply]
  show (V c main_v42 : S100000x1.Idx → EReal) (((cfg1.win 1).blk t).view.emb y) = (V c main_v42 : S100000x1.Idx → EReal) i
  refine congrArg (V c main_v42 : S100000x1.Idx → EReal) ?_
  funext a; apply Fin.ext
  match a with
  | ⟨0, _⟩ => show win1_1.index t (0 : Fin 2) * 4000 + 1 * (y 0).val = (i 0).val; omega
  | ⟨1, _⟩ => show win1_1.index t (1 : Fin 2) * 1 + 1 * (y 1).val = (i 1).val; omega

/-- The first weight matrix is one block: every point reads the whole of it. -/
theorem blk2_eq (c : Dev nD) (t : Fin cfg1.N) :
    (iblk1 V c 2 t : Vec Ideal S128x128 .bf16) = (V c main_v43 : S128x128.Idx → EReal) := by
  obtain ⟨-, -, -, -, e0, e1, -⟩ := idx_facts t
  funext y
  unfold iblk1
  rw [View.read_apply]
  show (V c main_v43 : S128x128.Idx → EReal) (((cfg1.win 2).blk t).view.emb y) = (V c main_v43 : S128x128.Idx → EReal) y
  refine congrArg (V c main_v43 : S128x128.Idx → EReal) ?_
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The first bias row likewise. -/
theorem blk3_eq (c : Dev nD) (t : Fin cfg1.N) :
    (iblk1 V c 3 t : Vec Ideal S1x128 .f32) = (V c main_v45 : S1x128.Idx → EReal) := by
  obtain ⟨-, -, -, -, -, -, e0, e1, -⟩ := idx_facts t
  funext y
  unfold iblk1
  rw [View.read_apply]
  show (V c main_v45 : S1x128.Idx → EReal) (((cfg1.win 3).blk t).view.emb y) = (V c main_v45 : S1x128.Idx → EReal) y
  refine congrArg (V c main_v45 : S1x128.Idx → EReal) ?_
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The second weight matrix likewise. -/
theorem blk4_eq (c : Dev nD) (t : Fin cfg1.N) :
    (iblk1 V c 4 t : Vec Ideal S128x128 .bf16) = (V c main_v44 : S128x128.Idx → EReal) := by
  obtain ⟨-, -, -, -, -, -, -, -, e0, e1, -⟩ := idx_facts t
  funext y
  unfold iblk1
  rw [View.read_apply]
  show (V c main_v44 : S128x128.Idx → EReal) (((cfg1.win 4).blk t).view.emb y) = (V c main_v44 : S128x128.Idx → EReal) y
  refine congrArg (V c main_v44 : S128x128.Idx → EReal) ?_
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The second bias row likewise. -/
theorem blk5_eq (c : Dev nD) (t : Fin cfg1.N) :
    (iblk1 V c 5 t : Vec Ideal S1x128 .f32) = (V c main_v46 : S1x128.Idx → EReal) := by
  obtain ⟨-, -, -, -, -, -, -, -, -, -, e0, e1, -⟩ := idx_facts t
  funext y
  unfold iblk1
  rw [View.read_apply]
  show (V c main_v46 : S1x128.Idx → EReal) (((cfg1.win 5).blk t).view.emb y) = (V c main_v46 : S1x128.Idx → EReal) y
  refine congrArg (V c main_v46 : S1x128.Idx → EReal) ?_
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- What point t writes back is block t of the whole-array function: row p of the block is row 4000 t + p of the
    pooled array and of the counts, and the parameters are read whole. -/
theorem flushed_eq (c : Dev nD) (t : Fin cfg1.N) :
    (dat1 (F := Ideal) V c).flushed 6 t = ((cfg1.win 6).blk t).view.read (Elt Ideal) (G V c) := by
  show (cfg1.win 6).cut (grid1.coords t) ((dat1 V c).after 6 t) = _
  rw [after1_6]
  obtain ⟨-, -, -, -, -, -, -, -, -, -, -, -, e0, e1⟩ := idx_facts t
  funext j
  have hi0 : ((((cfg1.win 6).blk t).view.emb j : S100000x128.Idx) 0).val = 4000 * t.val + ((j : S4000x128.Idx) 0).val := by
    show win1_6.index t (0 : Fin 2) * 4000 + 1 * ((j : S4000x128.Idx) 0).val = _; omega
  have hi1 : ((((cfg1.win 6).blk t).view.emb j : S100000x128.Idx) 1).val = ((j : S4000x128.Idx) 1).val := by
    show win1_6.index t (1 : Fin 2) * 128 + 1 * ((j : S4000x128.Idx) 1).val = _; omega
  show out1_6 (iblk1 V c 0 t) (iblk1 V c 1 t) (iblk1 V c 2 t) (iblk1 V c 3 t) (iblk1 V c 4 t) (iblk1 V c 5 t) (j : S4000x128.Idx)
    = G V c (((cfg1.win 6).blk t).view.emb j)
  refine (out_at _ _ _ _ _ _ j).trans (objRow_congr ?_ ?_ ?_ ?_ ?_ ?_ ?_)
  · funext k
    exact blk0_apply V c t _ _ hi0 rfl
  · exact blk1_apply V c t _ _ hi0 rfl
  · rw [blk2_eq]; rfl
  · rw [blk3_eq]; rfl
  · rw [blk4_eq]; rfl
  · rw [blk5_eq]; rfl
  · exact Fin.ext hi1.symm

/-- An index of the output array is in point t's block iff each coordinate is in the block's range on its axis. -/
theorem mem_blk (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v47).slice (win1_6.rect t)).set ↔ _
  rw [View.set_slice_whole, Rect.mem_set_unit]
  exact Iff.rfl

/-- Row r lies in the block of point r / 4000: the 25 bands of 4000 rows cover the 100000 rows. -/
theorem cover (i : S100000x128.Idx) :
    ∃ t : Fin cfg1.N, (cfg1.win 6).flush t = true ∧ i ∈ ((cfg1.win 6).blk t).view.set := by
  have hN : cfg1.N = 25 := N_1
  have hi0 : (i 0).val < 100000 := (i 0).isLt
  have hi1 : (i 1).val < 128 := (i 1).isLt
  have ht : (i 0).val / 4000 < cfg1.N := by rw [hN]; omega
  refine ⟨⟨(i 0).val / 4000, ht⟩, flush1_6 _, ?_⟩
  rw [mem_blk]
  obtain ⟨-, -, -, -, -, -, -, -, -, -, -, -, e0, e1⟩ := idx_facts ⟨(i 0).val / 4000, ht⟩
  have e0' : win1_6.index ⟨(i 0).val / 4000, ht⟩ (0 : Fin 2) = (i 0).val / 4000 := e0
  intro a
  match a with
  | ⟨0, _⟩ =>
    show win1_6.index ⟨(i 0).val / 4000, ht⟩ (0 : Fin 2) * 4000 ≤ (i 0).val
      ∧ (i 0).val < win1_6.index ⟨(i 0).val / 4000, ht⟩ (0 : Fin 2) * 4000 + 4000
    omega
  | ⟨1, _⟩ =>
    show win1_6.index ⟨(i 0).val / 4000, ht⟩ (1 : Fin 2) * 128 ≤ (i 1).val
      ∧ (i 1).val < win1_6.index ⟨(i 0).val / 4000, ht⟩ (1 : Fin 2) * 128 + 128
    omega

/-- The output array after the launch: at every index the object row of its own row of the pooled array and count. -/
theorem final1_6 (c : Dev nD) :
    (dat1 (F := Ideal) V c).arrAt 6 cfg1.N = fun i =>
      Spec.objRow (Spec.row (V c main_v32 : S100000x128.Idx → EReal) (i 0))
        ((V c main_v42 : S100000x1.Idx → EReal) (ix2 (i 0) ⟨0, Nat.one_pos⟩))
        (Spec.mat (V c main_v43 : S128x128.Idx → EReal)) (Spec.row0 (V c main_v45 : S1x128.Idx → EReal))
        (Spec.mat (V c main_v44 : S128x128.Idx → EReal)) (Spec.row0 (V c main_v46 : S1x128.Idx → EReal)) (i 1) :=
  (dat1 V c).arrAt_eq_of_cover 6 (G V c) (fun t _ => flushed_eq V c t) cover

end Array

end Cert.ObjRegion

end
-- ==== Proof.RefEdge.lean ====
/-
  The reference's edge network is the specification's, band by band.

  The reference sets the gathered subject rows, the predicate rows and the gathered object rows side by side into one
  [400000, 384] matrix and multiplies it by the 384×128 weight matrix: at (t, k) a sum over the 384 concatenated
  entries. A sum over 384 = 128 + 128 + 128 indices is the sum over the first 128, plus the sum over the middle 128,
  plus the sum over the last 128, grouped (first + middle) + last; and on each band the concatenated row is the
  subject row, the predicate row, the object row. So the hidden unit is the three band products added in that order,
  plus the bias, rectified: Spec.hidRow. The second layer is one product with the 128×384 matrix, the bias and the
  rectifier: Spec.outRow. The three results are the column bands 0…127, 128…255, 256…383 of that [400000, 384]
  output: Spec.edgeOut at the three offsets. The two gathers are carried as they are, never opened.
  Only the commutative-monoid laws of + are used: nothing needs an entry to be finite.
-/
import proofs.«176940_j88923002896582_2_alg».proof.Proof.Gen.ReferenceIdeal.Read
import proofs.«176940_j88923002896582_2_alg».proof.Proof.Spec
import proofs.«176940_j88923002896582_2_alg».proof.Proof.LibPaddedSum

noncomputable section

namespace Cert.RefEdge

open Cert.ReferenceIdeal Cert.ReferenceIdeal.Gen Cert.ReferenceIdeal.Read Idealize.ShloMosaic Idealize.ShloMosaic.ValueIdx
open Idealize.ShloMosaic.StableHlo
open scoped BigOperators

/-! ## Indices by their coordinates -/

/-- Two rank-2 indices with the same coordinates are equal. -/
theorem idx2_ext {a b : Nat} {p q : (⟨2, ![a, b]⟩ : Shape).Idx} (h0 : (p 0).val = (q 0).val) (h1 : (p 1).val = (q 1).val) :
    p = q :=
  funext fun d => Fin.ext (by match d with | ⟨0, _⟩ => exact h0 | ⟨1, _⟩ => exact h1)

/-- Two rank-1 indices with the same coordinate are equal. -/
theorem idx1_ext {a : Nat} {p q : (⟨1, ![a]⟩ : Shape).Idx} (h0 : (p 0).val = (q 0).val) : p = q :=
  funext fun d => Fin.ext (by match d with | ⟨0, _⟩ => exact h0)

theorem lidx19 (t : Fin 400000) (k : Fin 128) (q : Fin 384) : lidx_main_v19 (ix2 t k) q = ix2 t q := idx2_ext rfl rfl
theorem ridx19 (t : Fin 400000) (k : Fin 128) (q : Fin 384) : ridx_main_v19 (ix2 t k) q = ix2 q k := idx2_ext rfl rfl
theorem idx2021 (t : Fin 400000) (k : Fin 128) : idx_main_v20 (idx_main_v21 (ix2 t k)) = ix1 k := idx1_ext rfl
theorem lidx24 (t : Fin 400000) (c : Fin 384) (k : Fin 128) : lidx_main_v24 (ix2 t c) k = ix2 t k := idx2_ext rfl rfl
theorem ridx24 (t : Fin 400000) (c : Fin 384) (k : Fin 128) : ridx_main_v24 (ix2 t c) k = ix2 k c := idx2_ext rfl rfl
theorem idx2526 (t : Fin 400000) (c : Fin 384) : idx_main_v25 (idx_main_v26 (ix2 t c)) = ix1 c := idx1_ext rfl
theorem idx29 (t : Fin 400000) (j : Fin 128) (h : 0 + j.val < 384) : idx_main_v29 (ix2 t j) = ix2 t ⟨0 + j.val, h⟩ :=
  idx2_ext rfl (Nat.zero_add _).symm
theorem idx30 (t : Fin 400000) (j : Fin 128) (h : 128 + j.val < 384) : idx_main_v30 (ix2 t j) = ix2 t ⟨128 + j.val, h⟩ :=
  idx2_ext rfl rfl
theorem idx31 (t : Fin 400000) (j : Fin 128) (h : 256 + j.val < 384) : idx_main_v31 (ix2 t j) = ix2 t ⟨256 + j.val, h⟩ :=
  idx2_ext rfl rfl

/-! ## Three matrices side by side -/

section Beside
variable {α : Type} {A n R : Nat} (y0 y1 y2 : (⟨2, ![A, n]⟩ : Shape).Idx → α)
  (h : Shape.Concatenates [(⟨2, ![A, n]⟩ : Shape), ⟨2, ![A, n]⟩, ⟨2, ![A, n]⟩] ⟨2, ![A, R]⟩ 1)
  (t : Fin A) (d : Fin n) (c : Fin R)

/-- Off the column axis an entry of a piece and its place in the whole have the same coordinate. -/
theorem off_axis : ∀ b : Fin 2, b.cast (rfl : (2 : Nat) = 2) ≠ (1 : Fin 2) →
    ((ix2 t d) b).val = ((ix2 t c) (b.cast rfl)).val :=
  fun b => match b with
    | ⟨0, _⟩ => fun _ => rfl
    | ⟨1, _⟩ => fun hb => absurd rfl hb

/-- Of three [A, n] matrices side by side, column c = d is column d of the first. -/
theorem beside3_first (hc : c.val = d.val) :
    concatenate ⟨2, ![A, R]⟩ 1 [⟨⟨2, ![A, n]⟩, y0⟩, ⟨⟨2, ![A, n]⟩, y1⟩, ⟨⟨2, ![A, n]⟩, y2⟩] h (ix2 t c) = y0 (ix2 t d) :=
  concatenate_apply_piece (t := ⟨2, ![A, R]⟩) (1 : Fin 2) [⟨⟨2, ![A, n]⟩, y0⟩, ⟨⟨2, ![A, n]⟩, y1⟩, ⟨⟨2, ![A, n]⟩, y2⟩] h
    (ix2 t c) 0 (by simp) ⟨2, ![A, n]⟩ y0 rfl rfl 0 rfl (ix2 t d) (off_axis t d c)
    (by show 0 + d.val = c.val; omega)

/-- Column c = n + d is column d of the second. -/
theorem beside3_second (hc : c.val = n + d.val) :
    concatenate ⟨2, ![A, R]⟩ 1 [⟨⟨2, ![A, n]⟩, y0⟩, ⟨⟨2, ![A, n]⟩, y1⟩, ⟨⟨2, ![A, n]⟩, y2⟩] h (ix2 t c) = y1 (ix2 t d) :=
  concatenate_apply_piece (t := ⟨2, ![A, R]⟩) (1 : Fin 2) [⟨⟨2, ![A, n]⟩, y0⟩, ⟨⟨2, ![A, n]⟩, y1⟩, ⟨⟨2, ![A, n]⟩, y2⟩] h
    (ix2 t c) 1 (by simp) ⟨2, ![A, n]⟩ y1 rfl rfl n (by simp) (ix2 t d) (off_axis t d c)
    (by show n + d.val = c.val; omega)

/-- Column c = n + n + d is column d of the third. -/
theorem beside3_third (hc : c.val = n + n + d.val) :
    concatenate ⟨2, ![A, R]⟩ 1 [⟨⟨2, ![A, n]⟩, y0⟩, ⟨⟨2, ![A, n]⟩, y1⟩, ⟨⟨2, ![A, n]⟩, y2⟩] h (ix2 t c) = y2 (ix2 t d) :=
  concatenate_apply_piece (t := ⟨2, ![A, R]⟩) (1 : Fin 2) [⟨⟨2, ![A, n]⟩, y0⟩, ⟨⟨2, ![A, n]⟩, y1⟩, ⟨⟨2, ![A, n]⟩, y2⟩] h
    (ix2 t c) 2 (by simp) ⟨2, ![A, n]⟩ y2 rfl rfl (n + n) (by simp) (ix2 t d) (off_axis t d c)
    (by show n + n + d.val = c.val; omega)

end Beside

/-! ## The edge network -/

/-- A sum over the 384 concatenated entries, band by band, grouped (first + second) + third. -/
theorem band_sum (g : Fin 384 → EReal) :
    ∑ q, g q = (∑ i : Fin 128, g ⟨i.val, by omega⟩ + ∑ i : Fin 128, g ⟨128 + i.val, by omega⟩)
      + ∑ i : Fin 128, g ⟨256 + i.val, by omega⟩ := by
  rw [PaddedSum.sum_split (show 256 + 128 = 384 from rfl) g,
    PaddedSum.sum_split (show 128 + 128 = 256 from rfl) (fun i : Fin 256 => g ⟨i.val, by omega⟩)]

/-- The concatenated row's first band is the gathered subject row. -/
theorem cat_band0 (x0 : (⟨S100000x128, .f32⟩ : BufTy).Contents (Elt Ideal)) (x1 : (⟨S400000x128, .f32⟩ : BufTy).Contents (Elt Ideal))
    (x2 : (⟨S400000x2, .i32⟩ : BufTy).Contents (Elt Ideal)) (t : Fin 400000) (i : Fin 128) (h : i.val < 384) :
    val_main_v18 (F := Ideal) x0 x1 x2 (ix2 t ⟨i.val, h⟩) = val_main_v10 (F := Ideal) x0 x2 (ix2 t i) := by
  unfold val_main_v18
  generalize val_main_v10 (F := Ideal) x0 x2 = y0
  generalize val_main_v17 (F := Ideal) x0 x2 = y2
  exact beside3_first y0 x1 y2 _ t i ⟨i.val, h⟩ rfl

/-- Its second band is the predicate row. -/
theorem cat_band1 (x0 : (⟨S100000x128, .f32⟩ : BufTy).Contents (Elt Ideal)) (x1 : (⟨S400000x128, .f32⟩ : BufTy).Contents (Elt Ideal))
    (x2 : (⟨S400000x2, .i32⟩ : BufTy).Contents (Elt Ideal)) (t : Fin 400000) (i : Fin 128) (h : 128 + i.val < 384) :
    val_main_v18 (F := Ideal) x0 x1 x2 (ix2 t ⟨128 + i.val, h⟩) = x1 (ix2 t i) := by
  unfold val_main_v18
  generalize val_main_v10 (F := Ideal) x0 x2 = y0
  generalize val_main_v17 (F := Ideal) x0 x2 = y2
  exact beside3_second y0 x1 y2 _ t i ⟨128 + i.val, h⟩ rfl

/-- Its third band is the gathered object row. -/
theorem cat_band2 (x0 : (⟨S100000x128, .f32⟩ : BufTy).Contents (Elt Ideal)) (x1 : (⟨S400000x128, .f32⟩ : BufTy).Contents (Elt Ideal))
    (x2 : (⟨S400000x2, .i32⟩ : BufTy).Contents (Elt Ideal)) (t : Fin 400000) (i : Fin 128) (h : 256 + i.val < 384) :
    val_main_v18 (F := Ideal) x0 x1 x2 (ix2 t ⟨256 + i.val, h⟩) = val_main_v17 (F := Ideal) x0 x2 (ix2 t i) := by
  unfold val_main_v18
  generalize val_main_v10 (F := Ideal) x0 x2 = y0
  generalize val_main_v17 (F := Ideal) x0 x2 = y2
  exact beside3_third y0 x1 y2 _ t i ⟨256 + i.val, h⟩ rfl

/-- The first layer at (t, k): the product with the concatenated row splits into the three band products. -/
theorem hid_at (x0 : (⟨S100000x128, .f32⟩ : BufTy).Contents (Elt Ideal)) (x1 : (⟨S400000x128, .f32⟩ : BufTy).Contents (Elt Ideal))
    (x2 : (⟨S400000x2, .i32⟩ : BufTy).Contents (Elt Ideal)) (x3 : (⟨S384x128, .f32⟩ : BufTy).Contents (Elt Ideal))
    (x4 : (⟨S128, .f32⟩ : BufTy).Contents (Elt Ideal)) (t : Fin 400000) (k : Fin 128) :
    val_main_v23 (F := Ideal) x0 x1 x2 x3 x4 (ix2 t k)
      = Spec.hidRow (Spec.row (val_main_v10 (F := Ideal) x0 x2) t) (Spec.row x1 t)
          (Spec.row (val_main_v17 (F := Ideal) x0 x2) t) (Spec.mat x3) (Spec.vec x4) k := by
  rw [val_main_v23_apply, val_main_v22_apply, val_main_v19_apply, val_main_v21_apply, val_main_v20_apply,
    val_main_call0_v0_apply, val_main_call0_cst_apply, idx2021, Ideal.maximumf_def, Ideal.addf_def, Ideal.ofBits_def]
  unfold Spec.hidRow
  refine congrArg₂ max (congrArg₂ (· + ·) ?_ rfl) rfl
  rw [band_sum]
  refine congrArg₂ (· + ·) (congrArg₂ (· + ·) (Finset.sum_congr rfl fun i _ => ?_) (Finset.sum_congr rfl fun i _ => ?_))
    (Finset.sum_congr rfl fun i _ => ?_)
  · rw [lidx19, ridx19, cat_band0]
    generalize val_main_v10 (F := Ideal) x0 x2 = S
    rfl
  · rw [lidx19, ridx19, cat_band1]
    rfl
  · rw [lidx19, ridx19, cat_band2]
    generalize val_main_v17 (F := Ideal) x0 x2 = O
    rfl

/-- The second layer at (t, c), c among the 384 outputs. -/
theorem outRow_at (x0 : (⟨S100000x128, .f32⟩ : BufTy).Contents (Elt Ideal)) (x1 : (⟨S400000x128, .f32⟩ : BufTy).Contents (Elt Ideal))
    (x2 : (⟨S400000x2, .i32⟩ : BufTy).Contents (Elt Ideal)) (x3 : (⟨S384x128, .f32⟩ : BufTy).Contents (Elt Ideal))
    (x4 : (⟨S128, .f32⟩ : BufTy).Contents (Elt Ideal)) (x5 : (⟨S128x384, .f32⟩ : BufTy).Contents (Elt Ideal))
    (x6 : (⟨S384, .f32⟩ : BufTy).Contents (Elt Ideal)) (t : Fin 400000) (c : Fin 384) :
    val_main_v28 (F := Ideal) x0 x1 x2 x3 x4 x5 x6 (ix2 t c)
      = Spec.outRow (Spec.row (val_main_v10 (F := Ideal) x0 x2) t) (Spec.row x1 t)
          (Spec.row (val_main_v17 (F := Ideal) x0 x2) t) (Spec.mat x3) (Spec.vec x4) (Spec.mat x5) (Spec.vec x6) c := by
  rw [val_main_v28_apply, val_main_v27_apply, val_main_v24_apply, val_main_v26_apply, val_main_v25_apply,
    val_main_call1_v0_apply, val_main_call1_cst_apply, idx2526, Ideal.maximumf_def, Ideal.addf_def, Ideal.ofBits_def]
  unfold Spec.outRow
  refine congrArg₂ max (congrArg₂ (· + ·) (Finset.sum_congr rfl fun k _ => ?_) rfl) rfl
  rw [lidx24, ridx24, hid_at]
  generalize val_main_v10 (F := Ideal) x0 x2 = S
  generalize val_main_v17 (F := Ideal) x0 x2 = O
  rfl

/-- The first 128 outputs of every edge. -/
theorem R1 (x0 : (⟨S100000x128, .f32⟩ : BufTy).Contents (Elt Ideal)) (x1 : (⟨S400000x128, .f32⟩ : BufTy).Contents (Elt Ideal))
    (x2 : (⟨S400000x2, .i32⟩ : BufTy).Contents (Elt Ideal)) (x3 : (⟨S384x128, .f32⟩ : BufTy).Contents (Elt Ideal))
    (x4 : (⟨S128, .f32⟩ : BufTy).Contents (Elt Ideal)) (x5 : (⟨S128x384, .f32⟩ : BufTy).Contents (Elt Ideal))
    (x6 : (⟨S384, .f32⟩ : BufTy).Contents (Elt Ideal)) :
    val_main_v29 (F := Ideal) x0 x1 x2 x3 x4 x5 x6
      = Spec.edgeOut (val_main_v10 (F := Ideal) x0 x2) x1 (val_main_v17 (F := Ideal) x0 x2) x3 x4 x5 x6 0 (by omega) := by
  funext i
  obtain ⟨t, j, rfl⟩ : ∃ (t : Fin 400000) (j : Fin 128), i = ix2 t j := ⟨i 0, i 1, eq_ix2 i⟩
  rw [val_main_v29_apply, idx29 t j (by omega), outRow_at]
  generalize val_main_v10 (F := Ideal) x0 x2 = S
  generalize val_main_v17 (F := Ideal) x0 x2 = O
  unfold Spec.edgeOut
  rfl

/-- The middle 128 outputs of every edge. -/
theorem R2 (x0 : (⟨S100000x128, .f32⟩ : BufTy).Contents (Elt Ideal)) (x1 : (⟨S400000x128, .f32⟩ : BufTy).Contents (Elt Ideal))
    (x2 : (⟨S400000x2, .i32⟩ : BufTy).Contents (Elt Ideal)) (x3 : (⟨S384x128, .f32⟩ : BufTy).Contents (Elt Ideal))
    (x4 : (⟨S128, .f32⟩ : BufTy).Contents (Elt Ideal)) (x5 : (⟨S128x384, .f32⟩ : BufTy).Contents (Elt Ideal))
    (x6 : (⟨S384, .f32⟩ : BufTy).Contents (Elt Ideal)) :
    val_main_v30 (F := Ideal) x0 x1 x2 x3 x4 x5 x6
      = Spec.edgeOut (val_main_v10 (F := Ideal) x0 x2) x1 (val_main_v17 (F := Ideal) x0 x2) x3 x4 x5 x6 128 (by omega) := by
  funext i
  obtain ⟨t, j, rfl⟩ : ∃ (t : Fin 400000) (j : Fin 128), i = ix2 t j := ⟨i 0, i 1, eq_ix2 i⟩
  rw [val_main_v30_apply, idx30 t j (by omega), outRow_at]
  generalize val_main_v10 (F := Ideal) x0 x2 = S
  generalize val_main_v17 (F := Ideal) x0 x2 = O
  unfold Spec.edgeOut
  rfl

/-- The last 128 outputs of every edge. -/
theorem R3 (x0 : (⟨S100000x128, .f32⟩ : BufTy).Contents (Elt Ideal)) (x1 : (⟨S400000x128, .f32⟩ : BufTy).Contents (Elt Ideal))
    (x2 : (⟨S400000x2, .i32⟩ : BufTy).Contents (Elt Ideal)) (x3 : (⟨S384x128, .f32⟩ : BufTy).Contents (Elt Ideal))
    (x4 : (⟨S128, .f32⟩ : BufTy).Contents (Elt Ideal)) (x5 : (⟨S128x384, .f32⟩ : BufTy).Contents (Elt Ideal))
    (x6 : (⟨S384, .f32⟩ : BufTy).Contents (Elt Ideal)) :
    val_main_v31 (F := Ideal) x0 x1 x2 x3 x4 x5 x6
      = Spec.edgeOut (val_main_v10 (F := Ideal) x0 x2) x1 (val_main_v17 (F := Ideal) x0 x2) x3 x4 x5 x6 256 (by omega) := by
  funext i
  obtain ⟨t, j, rfl⟩ : ∃ (t : Fin 400000) (j : Fin 128), i = ix2 t j := ⟨i 0, i 1, eq_ix2 i⟩
  rw [val_main_v31_apply, idx31 t j (by omega), outRow_at]
  generalize val_main_v10 (F := Ideal) x0 x2 = S
  generalize val_main_v17 (F := Ideal) x0 x2 = O
  unfold Spec.edgeOut
  rfl

end Cert.RefEdge

end
-- ==== Proof.RefValue.lean ====
/-
  The reference's object network is the specification's.

  Per object, the reference divides the pooled row entry by entry by the incidence count clipped into [1, 1000] and
  spread along the columns, multiplies the quotient row by a 128×128 matrix, adds a bias and rectifies; then once
  more with a second matrix and bias.  Each operation is read at an index through the per-operation equations of the
  generated Read module, layer by layer; the pooled sums and the incidence counts (the scatter-adds) are carried as
  the same terms on both sides and never opened.
-/
import proofs.«176940_j88923002896582_2_alg».proof.Proof.Gen.ReferenceIdeal.Read
import proofs.«176940_j88923002896582_2_alg».proof.Proof.Spec

noncomputable section

open scoped BigOperators

namespace Cert.RefValue

open Cert.ReferenceIdeal Cert.ReferenceIdeal.Gen Cert.ReferenceIdeal.Read Idealize.ShloMosaic Idealize.ShloMosaic.ValueIdx
  Idealize.ShloMosaic.StableHlo

/-! ## Index arithmetic

The composed index functions of the Read module at an index given by its coordinates. -/

private theorem m2 {a b : Nat} {p q : (⟨2, ![a, b]⟩ : Shape).Idx} (h0 : (p 0).val = (q 0).val) (h1 : (p 1).val = (q 1).val) :
    p = q :=
  funext fun d => Fin.ext (by match d with | ⟨0, _⟩ => exact h0 | ⟨1, _⟩ => exact h1)

private theorem m1 {a : Nat} {p q : (⟨1, ![a]⟩ : Shape).Idx} (h0 : (p 0).val = (q 0).val) : p = q :=
  funext fun d => Fin.ext (by match d with | ⟨0, _⟩ => exact h0)

private theorem lidx72 (r : Fin 100000) (j k : Fin 128) : lidx_main_v72 (ix2 r j) k = ix2 r k := m2 rfl rfl
private theorem ridx72 (r : Fin 100000) (j k : Fin 128) : ridx_main_v72 (ix2 r j) k = ix2 k j := m2 rfl rfl
private theorem lidx67 (r : Fin 100000) (j k : Fin 128) : lidx_main_v67 (ix2 r j) k = ix2 r k := m2 rfl rfl
private theorem ridx67 (r : Fin 100000) (j k : Fin 128) : ridx_main_v67 (ix2 r j) k = ix2 k j := m2 rfl rfl
private theorem idx6465 (r : Fin 100000) (j : Fin 128) : idx_main_v64 (idx_main_v65 (ix2 r j)) = ix1 r := m1 rfl
private theorem idx6869 (r : Fin 100000) (j : Fin 128) : idx_main_v68 (idx_main_v69 (ix2 r j)) = ix1 j := m1 rfl
private theorem idx7374 (r : Fin 100000) (j : Fin 128) : idx_main_v73 (idx_main_v74 (ix2 r j)) = ix1 j := m1 rfl

/-! ## The object network -/

/-- The incidence count clipped into [1, 1000] and spread along the columns. -/
private theorem clip_at (x2 : (⟨S400000x2, .i32⟩ : BufTy).Contents (Elt Ideal)) (r : Fin 100000) (i : Fin 128) :
    val_main_v65 (F := Ideal) x2 (ix2 r i) = Spec.clipCount (val_main_v62 (F := Ideal) x2 (ix1 r)) := by
  rw [val_main_v65_apply, val_main_v64_apply, val_main_v63_apply, val_main_call2_v4_apply, val_main_call2_v3_apply,
    val_main_cst_14_apply, val_main_call2_v2_apply, val_main_call2_v1_apply, val_main_call2_v0_apply,
    val_main_cst_13_apply, idx6465]
  rfl

/-- The pooled sum over the clipped count. -/
private theorem mean_at (x0 : (⟨S100000x128, .f32⟩ : BufTy).Contents (Elt Ideal)) (x1 : (⟨S400000x128, .f32⟩ : BufTy).Contents (Elt Ideal)) (x2 : (⟨S400000x2, .i32⟩ : BufTy).Contents (Elt Ideal)) (x3 : (⟨S384x128, .f32⟩ : BufTy).Contents (Elt Ideal)) (x4 : (⟨S128, .f32⟩ : BufTy).Contents (Elt Ideal)) (x5 : (⟨S128x384, .f32⟩ : BufTy).Contents (Elt Ideal)) (x6 : (⟨S384, .f32⟩ : BufTy).Contents (Elt Ideal)) (r : Fin 100000) (i : Fin 128) :
    val_main_v66 (F := Ideal) x0 x1 x2 x3 x4 x5 x6 (ix2 r i)
      = Ideal.div (val_main_v46 (F := Ideal) x0 x1 x2 x3 x4 x5 x6 (ix2 r i)) (Spec.clipCount (val_main_v62 (F := Ideal) x2 (ix1 r))) := by
  rw [val_main_v66_apply, clip_at]
  rfl

/-- The first layer of the object network at (r, k). -/
private theorem objHid_at (x0 : (⟨S100000x128, .f32⟩ : BufTy).Contents (Elt Ideal)) (x1 : (⟨S400000x128, .f32⟩ : BufTy).Contents (Elt Ideal)) (x2 : (⟨S400000x2, .i32⟩ : BufTy).Contents (Elt Ideal)) (x3 : (⟨S384x128, .f32⟩ : BufTy).Contents (Elt Ideal)) (x4 : (⟨S128, .f32⟩ : BufTy).Contents (Elt Ideal)) (x5 : (⟨S128x384, .f32⟩ : BufTy).Contents (Elt Ideal)) (x6 : (⟨S384, .f32⟩ : BufTy).Contents (Elt Ideal)) (x7 : (⟨S128x128, .f32⟩ : BufTy).Contents (Elt Ideal)) (x8 : (⟨S128, .f32⟩ : BufTy).Contents (Elt Ideal)) (r : Fin 100000) (k : Fin 128) :
    val_main_v71 (F := Ideal) x0 x1 x2 x3 x4 x5 x6 x7 x8 (ix2 r k)
      = Spec.objHid (Spec.row (val_main_v46 (F := Ideal) x0 x1 x2 x3 x4 x5 x6) r) (val_main_v62 (F := Ideal) x2 (ix1 r))
          (Spec.mat x7) (Spec.vec x8) k := by
  rw [val_main_v71_apply, val_main_v70_apply, val_main_v67_apply, val_main_v69_apply, val_main_v68_apply,
    val_main_call3_v0_apply, val_main_call3_cst_apply, idx6869, Ideal.maximumf_def, Ideal.addf_def, Ideal.ofBits_def]
  unfold Spec.objHid
  refine congrArg₂ max (congrArg₂ (· + ·) (Finset.sum_congr rfl fun i _ => ?_) rfl) rfl
  rw [lidx67, ridx67, mean_at]
  generalize val_main_v46 (F := Ideal) x0 x1 x2 x3 x4 x5 x6 = pooled
  generalize val_main_v62 (F := Ideal) x2 = counts
  rfl

/-- The object network's output: the pooled sums over the clipped counts, through two rectified layers. -/
theorem R4 (x0 : (⟨S100000x128, .f32⟩ : BufTy).Contents (Elt Ideal)) (x1 : (⟨S400000x128, .f32⟩ : BufTy).Contents (Elt Ideal)) (x2 : (⟨S400000x2, .i32⟩ : BufTy).Contents (Elt Ideal)) (x3 : (⟨S384x128, .f32⟩ : BufTy).Contents (Elt Ideal)) (x4 : (⟨S128, .f32⟩ : BufTy).Contents (Elt Ideal)) (x5 : (⟨S128x384, .f32⟩ : BufTy).Contents (Elt Ideal)) (x6 : (⟨S384, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    Read.val_main_v76 (F := Ideal) x0 x1 x2 x3 x4 x5 x6 x7 x8 x9 x10
      = Spec.objOut (Read.val_main_v46 (F := Ideal) x0 x1 x2 x3 x4 x5 x6) (Read.val_main_v62 (F := Ideal) x2) x7 x8 x9 x10 := by
  funext i
  obtain ⟨r, j, rfl⟩ : ∃ (r : Fin 100000) (j : Fin 128), i = ix2 r j := ⟨i 0, i 1, eq_ix2 i⟩
  rw [val_main_v76_apply, val_main_v75_apply, val_main_v72_apply, val_main_v74_apply, val_main_v73_apply,
    val_main_call4_v0_apply, val_main_call4_cst_apply, idx7374, Ideal.maximumf_def, Ideal.addf_def, Ideal.ofBits_def]
  unfold Spec.objOut Spec.objRow
  refine congrArg₂ max (congrArg₂ (· + ·) (Finset.sum_congr rfl fun k _ => ?_) rfl) rfl
  rw [lidx72, ridx72, objHid_at]
  rfl

end Cert.RefValue

end
-- ==== Proof.Bridge.lean ====
/-
  THE BRIDGE: each of the idealized kernel's two results is the reference's, as one function of the arguments.

  The edge network. The first pallas_call leaves, in each of its three output arrays, the band of 128 columns of the
  edge row's 384 outputs (the first module of the region says so for any entry contents); at its entry the three row
  streams are the gathered subject rows, the predicate rows and the gathered object rows — the very gather terms of the
  reference — and the parameters are the arguments re-laid. The reference's three column slices are the same bands of
  the same row function. So the three arrays are the reference's slices, and the middle one is a result.

  The object network. The pooled sums the second call reads are one scatter-add of the concatenated subject and object
  bands, which is the reference's two chained scatter-adds; the counts likewise. The second call leaves the object row
  function of the pooled row and the count; the reference's last stage is the same function. So the other result agrees.
-/
import proofs.«176940_j88923002896582_2_alg».proof.Proof.HostStretch
import proofs.«176940_j88923002896582_2_alg».proof.Proof.ScatterBridge
import proofs.«176940_j88923002896582_2_alg».proof.Proof.LibKeepdims
import proofs.«176940_j88923002896582_2_alg».proof.Proof.Spec
import proofs.«176940_j88923002896582_2_alg».proof.Proof.EdgeRegion
import proofs.«176940_j88923002896582_2_alg».proof.Proof.ObjRegion
import proofs.«176940_j88923002896582_2_alg».proof.Proof.RefEdge
import proofs.«176940_j88923002896582_2_alg».proof.Proof.RefValue
import Idealize.ShloMosaic.Lib.ValueLayout

set_option maxRecDepth 16384

noncomputable section

namespace Cert.Bridge

open Cert.KernelIdeal Cert.KernelIdeal.Gen Cert.HostStretch Cert.ScatterBridge
open Idealize.ShloMosaic Idealize.ShloMosaic.TcCoe Idealize.SL.Sem Idealize.ShloMosaic.ValueIdx

variable (m : (ℓ : Loc nD τ sig) → Buf (Elt Ideal) ℓ) (ρ : Dev nD → PrngReg)

/-- A bias `[n]` re-laid as a row `[1, n]` has the bias as its one row. -/
theorem row0_reshape {n : ℕ} (x : (⟨1, ![n]⟩ : Shape).Idx → EReal) (h : (⟨1, ![n]⟩ : Shape).ShapeCasts ⟨2, ![1, n]⟩) :
    Spec.row0 (shapeCast ⟨2, ![1, n]⟩ x h) = Spec.vec x :=
  funext fun k => shapeCast_a_1a_apply x h ⟨0, Nat.one_pos⟩ k

/-! ## The edge network's three output arrays -/

/-- The subject output array: the reference's slice of columns 0–127. -/
theorem edge_s (c : Dev nD) :
    (dat0 (V1 m ρ) c).arrAt 7 cfg0.N = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Cert.EdgeRegion.final0_7 (V1 m ρ) c, Cert.RefEdge.R1]
  funext i
  unfold Spec.edgeOut
  rw [V1_v10, V1_arg1, V1_v17, V1_v18, V1_v19, V1_v20, V1_v21, row0_reshape, row0_reshape]
  congr 1
  exact Fin.ext (Nat.zero_add _).symm

/-- The predicate output array: the reference's slice of columns 128–255. -/
theorem edge_p (c : Dev nD) :
    (dat0 (V1 m ρ) c).arrAt 8 cfg0.N = Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Cert.EdgeRegion.final0_8 (V1 m ρ) c, Cert.RefEdge.R2]
  funext i
  unfold Spec.edgeOut
  rw [V1_v10, V1_arg1, V1_v17, V1_v18, V1_v19, V1_v20, V1_v21, row0_reshape, row0_reshape]

/-- The object-side output array: the reference's slice of columns 256–383. -/
theorem edge_o (c : Dev nD) :
    (dat0 (V1 m ρ) c).arrAt 9 cfg0.N = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Cert.EdgeRegion.final0_9 (V1 m ρ) c, Cert.RefEdge.R3]
  funext i
  unfold Spec.edgeOut
  rw [V1_v10, V1_arg1, V1_v17, V1_v18, V1_v19, V1_v20, V1_v21, row0_reshape, row0_reshape]

/-! ## The pooled sums and the counts -/

/-- The pooled sums the second call reads are the reference's. -/
theorem pooled (c : Dev nD) :
    (V3 m ρ c main_v32 : S100000x128.Idx → EReal) = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [V3_v32, W2_v22_0, W2_v22_2, edge_s, edge_o, pooledK_eq]
  rfl

/-- The incidence counts the second call reads are the reference's, as a column. -/
theorem counts (c : Dev nD) :
    (V3 m ρ c main_v42 : S100000x1.Idx → EReal)
      = shapeCast S100000x1 (Cert.ReferenceIdeal.Read.val_main_v62 (F := Ideal) (m ((c : Thread nD τ).loc main_arg2))) shapeCasts_S100000_S100000x1 := by
  rw [V3_v42, countsK_eq]
  rfl

/-! ## The two results -/

/-- The kernel's second result is the reference's. -/
theorem kernel_v22_1 (c : Dev nD) :
    W4 m ρ c (Proc.devRef .tc main_v22_1) = Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W4_v22_1 m ρ c).trans (edge_p m ρ c)

/-- The kernel's first result is the reference's. -/
theorem kernel_v47 (c : Dev nD) :
    W4 m ρ c (Proc.devRef .tc main_v47) = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [W4_v47, Cert.ObjRegion.final1_6 (V3 m ρ) c, Cert.RefValue.R4]
  refine funext fun (i : S100000x128.Idx) => ?_
  unfold Spec.objOut
  rw [pooled, counts, V3_v43, V3_v44, V3_v45, V3_v46, row0_reshape, row0_reshape]
  have hc : shapeCast S100000x1 (Cert.ReferenceIdeal.Read.val_main_v62 (F := Ideal) (m ((c : Thread nD τ).loc main_arg2))) shapeCasts_S100000_S100000x1
      (ix2 (i 0 : Fin 100000) ⟨0, Nat.one_pos⟩) = Cert.ReferenceIdeal.Read.val_main_v62 (F := Ideal) (m ((c : Thread nD τ).loc main_arg2)) (ix1 (i 0 : Fin 100000)) :=
    Cert.LibKeepdims.shapeCast_a_a1_apply _ _ _ _
  rw [hc]

end Cert.Bridge

end
-- ==== Proof.lean ====
/-
  The certificate: the kernel (gathers, an edge network as a pallas_call, scatter-adds, an object network as a second
  pallas_call) against its reference, a plain chain of array operations.

  Frames. The word-level kernel and the idealized kernel run, fault nowhere and leave their arguments as launched: the
  frames over @main's four segments. The reference is a straight line of host operations: its run, with the results
  dropped. The idealization rewrote no operation, so there is nothing to preserve.

  Values, on the extended reals. Both programs end, from memories that agree on the arguments, with equal results: the
  object network's output and the edge network's predicate output. The kernel's run names its two result arrays
  (KernelRun), the bridge reads them as the reference's own stage functions of the arguments (Bridge), and the
  reference's run ends at those stages. No finiteness is used: the two programs differ only in how sums are grouped
  (three band products against one product over the concatenated row; one scatter-add of a concatenation against two
  chained scatter-adds), and addition on the extended reals is a commutative monoid.
-/
import proofs.«176940_j88923002896582_2_alg».proof.Defs
import proofs.«176940_j88923002896582_2_alg».proof.Proof.Gen.Kernel
import proofs.«176940_j88923002896582_2_alg».proof.Proof.Gen.Kernel.Frame
import proofs.«176940_j88923002896582_2_alg».proof.Proof.Gen.KernelIdeal
import proofs.«176940_j88923002896582_2_alg».proof.Proof.Gen.KernelIdeal.Frame
import proofs.«176940_j88923002896582_2_alg».proof.Proof.Gen.ReferenceIdeal
import proofs.«176940_j88923002896582_2_alg».proof.Proof.Gen.Pre_finite_inputs
import proofs.«176940_j88923002896582_2_alg».proof.Proof.Gen.ReferenceIdeal.Run
import proofs.«176940_j88923002896582_2_alg».proof.Proof.Gen.ReferenceIdeal.Read
import proofs.«176940_j88923002896582_2_alg».proof.Proof.KernelRun
import proofs.«176940_j88923002896582_2_alg».proof.Proof.Bridge

set_option maxRecDepth 16384

noncomputable section

namespace Cert.Proof

open Idealize.ShloMosaic Idealize.ShloMosaic.TcCoe Idealize.SL.Sem

/-- The word-level kernel runs and leaves its arguments as launched. -/
theorem frame_p : Cert.frame_Kernel := fun m ρ _ => Cert.Kernel.Gen.frame m ρ

/-- The idealized kernel runs and leaves its arguments as launched. -/
theorem frame_pi : Cert.frame_KernelIdeal := fun m ρ _ => Cert.KernelIdeal.Gen.frame m ρ

/-- The reference runs and leaves its arguments as launched: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the same two result arrays: the reference's last
    object stage and its predicate slice, as functions of the kernel's arguments. -/
theorem algebraic : Cert.algebraic_KernelIdeal_ReferenceIdeal := by
  intro m ρ m' ρ' _ hagree
  refine ⟨fun c => Cert.ReferenceIdeal.Read.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v30 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.Bridge.kernel_v47 m ρ c), (h c).2.1.trans (Cert.Bridge.kernel_v22_1 m ρ c), (h c).2.2⟩)
      (Cert.KernelRun.run_named (F := Ideal) m ρ)
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v76_eq]
      obtain ⟨h0, h1, h2, h3, h4, h5, h6, h7, h8, h9, h10⟩ := hagree c
      rw [h0, h1, h2, h3, h4, h5, h6, h7, h8, h9, h10]
    · rw [(h c).2.1, Cert.ReferenceIdeal.Read.val_main_v30_eq]
      obtain ⟨h0, h1, h2, h3, h4, h5, h6, h7, h8, h9, h10⟩ := hagree c
      rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
